-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg8 : FVec F S256x64 .f32) (main_arg9 : FVec F S64 .f32) (main_arg10 : FVec F S64x64 .f32) (main_arg11 : FVec F S64 .f32) (main_v13 : IVec S_ 1) (main_v16 : IVec S1200000 1) : IVec S_ 1 :=
  let main_c_5 : IVec S_ 1 := constantI S_ 1 1#1
  let main_v17 : IVec S_ 1 := (fun x v => Host.reduce IntOp.andi x v reducesTo_S1200000_S_d0 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_v33

def fn {F : FTy → Type} [FloatOps F] (main_arg0 : FVec F S100000x256 .f32) (main_arg1 : FVec F S100000x256 .f32) (main_arg2 : IVec S1200000 32) (main_arg3 : IVec S1200000 32) (main_arg4 : FVec F S1200000 .f32) (main_arg5 : IVec S1200000 32) (main_arg6 : IVec S1200000 32) (main_arg7 : FVec F S1200000 .f32) (main_arg8 : FVec F S256x64 .f32) (main_arg9 : FVec F S64 .f32) (main_arg10 : FVec F S64x64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  let main_v14 : FVec F S1200000 .f32 := Host.absf main_arg7
  let main_cst_4 : FVec F S_ .f32 := constant S_ .f32 0x7F800000#32
  let main_v15 : FVec F S1200000 .f32 := broadcastInDim S1200000 ![] bcast_S_S1200000 main_cst_4
  let main_v16 : IVec S1200000 1 := cmpf .olt main_v14 main_v15
  fn_part1 (F := F) main_arg8 main_arg9 main_arg10 main_arg11 main_v13 main_v16
-- ==== Kernel.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x64 : Shape := ⟨2, ![64, 64]⟩
abbrev S1x64 : Shape := ⟨2, ![1, 64]⟩
abbrev S100000x64 : Shape := ⟨2, ![100000, 64]⟩
abbrev S10000x256 : Shape := ⟨2, ![10000, 256]⟩
abbrev S10000x64 : Shape := ⟨2, ![10000, 64]⟩
abbrev S_ : Shape := ⟨0, ![]⟩
abbrev S1200000x1 : Shape := ⟨2, ![1200000, 1]⟩
abbrev S1200000x64 : Shape := ⟨2, ![1200000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 88
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S1200000, .i32⟩
  | .hbm, ⟨6, _⟩ => ⟨S1200000, .i32⟩
  | .hbm, ⟨7, _⟩ => ⟨S1200000, .f32⟩
  | .hbm, ⟨8, _⟩ => ⟨S256x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S100000x64, .bf16⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .bf16⟩
  | .hbm, ⟨24, _⟩ => ⟨S1200000x64, .f32⟩
  | .hbm, ⟨25, _⟩ => ⟨S1200000x1, .f32⟩
  | .hbm, ⟨26, _⟩ => ⟨S1200000x64, .f32⟩
  | .hbm, ⟨27, _⟩ => ⟨S1200000x64, .f32⟩
  | .hbm, ⟨28, _⟩ => ⟨S_, .f32⟩
  | .hbm, ⟨29, _⟩ => ⟨S100000x64, .f32⟩
  | .hbm, ⟨30, _⟩ => ⟨S1200000x1, .i32⟩
  | .hbm, ⟨31, _⟩ => ⟨S100000x64, .f32⟩
  | .hbm, ⟨32, _⟩ => ⟨S100000x64, .bf16⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000x64, .bf16⟩
  | .hbm, ⟨42, _⟩ => ⟨S1200000x64, .f32⟩
  | .hbm, ⟨43, _⟩ => ⟨S1200000x1, .f32⟩
  | .hbm, ⟨44, _⟩ => ⟨S1200000x64, .f32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S100000x64, .f32⟩
  | .hbm, ⟨51, _⟩ => ⟨S100000x64, .bf16⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .bf16⟩
  | .hbm, ⟨61, _⟩ => ⟨S1200000x64, .f32⟩
  | .hbm, ⟨62, _⟩ => ⟨S1200000x1, .f32⟩
  | .hbm, ⟨63, _⟩ => ⟨S1200000x64, .f32⟩
  | .hbm, ⟨64, _⟩ => ⟨S1200000x64, .f32⟩
  | .hbm, ⟨65, _⟩ => ⟨S_, .f32⟩
  | .hbm, ⟨66, _⟩ => ⟨S100000x64, .f32⟩
  | .hbm, ⟨67, _⟩ => ⟨S1200000x1, .i32⟩
  | .hbm, ⟨68, _⟩ => ⟨S100000x64, .f32⟩
  | .hbm, ⟨69, _⟩ => ⟨S100000x64, .bf16⟩
  | .hbm, ⟨70, _⟩ => ⟨S_, .i32⟩
  | .hbm, ⟨71, _⟩ => ⟨S1200000, .i32⟩
  | .hbm, ⟨72, _⟩ => ⟨S1200000, .i1⟩
  | .hbm, ⟨73, _⟩ => ⟨S_, .i32⟩
  | .hbm, ⟨74, _⟩ => ⟨S1200000, .i32⟩
  | .hbm, ⟨75, _⟩ => ⟨S1200000, .i32⟩
  | .hbm, ⟨76, _⟩ => ⟨S1200000, .i32⟩
  | .hbm, ⟨77, _⟩ => ⟨S1200000x1, .i32⟩
  | .hbm, ⟨78, _⟩ => ⟨S1200000x64, .bf16⟩
  | .hbm, ⟨79, _⟩ => ⟨S1200000x64, .f32⟩
  | .hbm, ⟨80, _⟩ => ⟨S1200000x1, .f32⟩
  | .hbm, ⟨81, _⟩ => ⟨S1200000x64, .f32⟩
  | .hbm, ⟨82, _⟩ => ⟨S1200000x64, .f32⟩
  | .hbm, ⟨83, _⟩ => ⟨S_, .f32⟩
  | .hbm, ⟨84, _⟩ => ⟨S100000x64, .f32⟩
  | .hbm, ⟨85, _⟩ => ⟨S1200000x1, .i32⟩
  | .hbm, ⟨86, _⟩ => ⟨S100000x64, .f32⟩
  | .hbm, ⟨87, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .bf16⟩
  | .local _ .vmem, ⟨4, _⟩ => ⟨S10000x64, .bf16⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S10000x256, .f32⟩
  | .local _ .vmem, ⟨17, _⟩ => ⟨S10000x256, .f32⟩
  | .local _ .vmem, ⟨18, _⟩ => ⟨S256x64, .f32⟩
  | .local _ .vmem, ⟨19, _⟩ => ⟨S10000x64, .bf16⟩
  | .local _ .vmem, ⟨20, _⟩ => ⟨S10000x64, .bf16⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S64x64, .f32⟩
  | .local _ .vmem, ⟨25, _⟩ => ⟨S5000x64, .bf16⟩
  | .local _ .vmem, ⟨26, _⟩ => ⟨S5000x64, .bf16⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  reduces_S5000x64_S5000 : S5000x64.Reduces [1] S5000
  shapeCasts_S5000_S5000x1 : S5000.ShapeCasts S5000x1
  broadcasts_S5000x1_S5000x64 : S5000x1.Broadcasts S5000x64
  dot_S10000x256_S256x64_S10000x64_1_0_0_1_n_n_wf : DotDims.WF S10000x256 S256x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S100000x256.size a
  hwx3_0 : ∀ i : grid3.Coords, EltTy.bits .f32 = 32 ∨ (Rect.block (s := S100000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .bf16 = 32 ∨ (Rect.block (s := S100000x64) S10000x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .bf16 = 32 ∨ (Rect.block (s := S100000x64) S5000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v47) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v62) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x64 : Shape := ⟨2, ![64, 64]⟩
abbrev S100000x64 : Shape := ⟨2, ![100000, 64]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 150
  | .vmem => 0
  | .smem => 0
  | _ => 0

abbrev hbmTy0_0 (i : Nat) : BufTy := match i % 128 with
  | 0 => ⟨S100000x256, .f32⟩
  | 1 => ⟨S100000x256, .f32⟩
  | 2 => ⟨S1200000, .i32⟩
  | 3 => ⟨S1200000, .i32⟩
  | 4 => ⟨S1200000, .f32⟩
  | 5 => ⟨S1200000, .i32⟩
  | 6 => ⟨S1200000, .i32⟩
  | 7 => ⟨S1200000, .f32⟩
  | 8 => ⟨S256x64, .f32⟩
  | 9 => ⟨S64, .f32⟩
  | 10 => ⟨S64x64, .f32⟩
  | 11 => ⟨S64, .f32⟩
  | 12 => ⟨S100000x64, .f32⟩
  | 13 => ⟨S_, .i32⟩
  | 14 => ⟨S1200000, .i32⟩
  | 15 => ⟨S1200000, .i1⟩
  | 16 => ⟨S_, .i32⟩
  | 17 => ⟨S1200000, .i32⟩
  | 18 => ⟨S1200000, .i32⟩
  | 19 => ⟨S1200000, .i32⟩
  | 20 => ⟨S1200000x1, .i32⟩
  | 21 => ⟨S1200000x64, .f32⟩
  | 22 => ⟨S1200000x1, .f32⟩
  | 23 => ⟨S1200000x64, .f32⟩
  | 24 => ⟨S1200000x64, .f32⟩
  | 25 => ⟨S_, .f32⟩
  | 26 => ⟨S100000x64, .f32⟩
  | 27 => ⟨S1200000x1, .i32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S_, .f32⟩
  | 34 => ⟨S100000x64, .f32⟩
  | 35 => ⟨S100000x64, .i1⟩
  | 36 => ⟨S_, .f32⟩
  | 37 => ⟨S100000x64, .f32⟩
  | 38 => ⟨S100000x64, .i1⟩
  | 39 => ⟨S_, .f32⟩
  | 40 => ⟨S_, .f32⟩
  | 41 => ⟨S100000x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x1, .f32⟩
  | 62 => ⟨S1200000x64, .f32⟩
  | 63 => ⟨S1200000x64, .f32⟩
  | 64 => ⟨S_, .f32⟩
  | 65 => ⟨S100000x64, .f32⟩
  | 66 => ⟨S1200000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S100000, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000x64, .f32⟩
  | 80 => ⟨S100000x64, .f32⟩
  | 81 => ⟨S100000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S1200000x1, .f32⟩
  | 92 => ⟨S1200000x64, .f32⟩
  | 93 => ⟨S1200000x64, .f32⟩
  | 94 => ⟨S_, .f32⟩
  | 95 => ⟨S100000x64, .f32⟩
  | 96 => ⟨S1200000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .i1⟩
  | 108 => ⟨S_, .f32⟩
  | 109 => ⟨S_, .f32⟩
  | 110 => ⟨S100000x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S1200000, .i32⟩
  | 123 => ⟨S1200000, .i1⟩
  | 124 => ⟨S_, .i32⟩
  | 125 => ⟨S1200000, .i32⟩
  | 126 => ⟨S1200000, .i32⟩
  | 127 => ⟨S1200000, .i32⟩
  | _ => ⟨S100000x256, .f32⟩

abbrev hbmTy0_1 (i : Nat) : BufTy := match i % 128 with
  | 0 => ⟨S1200000x1, .i32⟩
  | 1 => ⟨S1200000x64, .f32⟩
  | 2 => ⟨S1200000x1, .f32⟩
  | 3 => ⟨S1200000x64, .f32⟩
  | 4 => ⟨S1200000x64, .f32⟩
  | 5 => ⟨S_, .f32⟩
  | 6 => ⟨S100000x64, .f32⟩
  | 7 => ⟨S1200000x1, .i32⟩
  | 8 => ⟨S100000x64, .f32⟩
  | 9 => ⟨S1x64, .f32⟩
  | 10 => ⟨S100000x64, .f32⟩
  | 11 => ⟨S100000x64, .f32⟩
  | 12 => ⟨S100000x64, .f32⟩
  | 13 => ⟨S_, .f32⟩
  | 14 => ⟨S100000, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x64, .f32⟩
  | 21 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_cst_0 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_cst_1 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_v0 : Ref sig .tc := ⟨.hbm, 47, rfl⟩
abbrev main_call0_cst_0 : Ref sig .tc := ⟨.hbm, 48, rfl⟩
abbrev main_call0_v1 : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_4 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_6 : Ref sig .tc := ⟨.hbm, 82, rfl⟩
abbrev main_v44 : Ref sig .tc := ⟨.hbm, 83, rfl⟩
abbrev main_v45 : Ref sig .tc := ⟨.hbm, 84, rfl⟩
abbrev main_c_7 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call1_cst : Ref sig .tc := ⟨.hbm, 101, rfl⟩
abbrev main_call1_call0_cst : Ref sig .tc := ⟨.hbm, 102, rfl⟩
abbrev main_call1_call0_v0 : Ref sig .tc := ⟨.hbm, 103, rfl⟩
abbrev main_call1_call0_v1 : Ref sig .tc := ⟨.hbm, 104, rfl⟩
abbrev main_call1_call0_cst_0 : Ref sig .tc := ⟨.hbm, 105, rfl⟩
abbrev main_call1_call0_v2 : Ref sig .tc := ⟨.hbm, 106, rfl⟩
abbrev main_call1_call0_v3 : Ref sig .tc := ⟨.hbm, 107, rfl⟩
abbrev main_call1_call0_cst_1 : Ref sig .tc := ⟨.hbm, 108, rfl⟩
abbrev main_call1_call0_call0_v0 : Ref sig .tc := ⟨.hbm, 109, rfl⟩
abbrev main_call1_call0_call0_v1 : Ref sig .tc := ⟨.hbm, 110, rfl⟩
abbrev main_call1_call0_v4 : Ref sig .tc := ⟨.hbm, 111, rfl⟩
abbrev main_call1_call0_v5 : Ref sig .tc := ⟨.hbm, 112, rfl⟩
abbrev main_call1_call0_v6 : Ref sig .tc := ⟨.hbm, 113, rfl⟩
abbrev main_call1_call0_v7 : Ref sig .tc := ⟨.hbm, 114, rfl⟩
abbrev main_call1_call0_v8 : Ref sig .tc := ⟨.hbm, 115, rfl⟩
abbrev main_call1_v0 : Ref sig .tc := ⟨.hbm, 116, rfl⟩
abbrev main_call1_cst_0 : Ref sig .tc := ⟨.hbm, 117, rfl⟩
abbrev main_call1_v1 : Ref sig .tc := ⟨.hbm, 118, rfl⟩
abbrev main_v60 : Ref sig .tc := ⟨.hbm, 119, rfl⟩
abbrev main_v61 : Ref sig .tc := ⟨.hbm, 120, rfl⟩
abbrev main_c_9 : Ref sig .tc := ⟨.hbm, 121, rfl⟩
abbrev main_v62 : Ref sig .tc := ⟨.hbm, 122, rfl⟩
abbrev main_v63 : Ref sig .tc := ⟨.hbm, 123, rfl⟩
abbrev main_c_10 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_11 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_12 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_13 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run, with every buffer named.

  The program is six pipelined regions among stretches of whole-array operations. Run from any memory with zero
  counters, every weakly fair execution terminates without a fault, and each buffer of a TensorCore ends holding the
  fold of the program over the launch memory: a stretch of whole-array operations applies them in order, and a
  region leaves each of its arrays at what its write-backs leave and every other buffer as it found it. The
  statement keeps that fold for EVERY buffer (the generated frame reads only the argument arrays out of it), so the
  two result arrays can be read out of it afterwards.
-/
import proofs.«152458_j67903432950131_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    TensorCore at the fold of the program's segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.KRun

end
-- ==== Proof.Carry.lean ====
/-
  Buffers that pass through stretches and regions untouched.

  The program is read as a fold through eleven boundaries. An argument array is written by no whole-array operation
  and is the output of no region (a region reads it through an input window, whose array the region leaves as it
  found it, or does not touch it), so it holds its launch contents at every boundary. The two bias rows — each
  bias vector viewed as a 1 × 64 matrix by the first two operations — are likewise left alone by everything after
  them. The lemmas below say so boundary by boundary, for exactly the buffers later stages read, and carry the first
  result array from the boundary where it is complete to the end.
-/
import proofs.«152458_j67903432950131_2_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A bias vector viewed as a 1 × 64 matrix. -/
def biasRow (b : (⟨S64, .f32⟩ : BufTy).Contents (Elt F)) : (⟨S1x64, .f32⟩ : BufTy).Contents (Elt F) :=
  fun i => shapeCast S1x64 b shapeCasts_S64_S1x64 i

/-- After the first two operations the two bias rows are in place. -/
theorem W1_main_v0 (c : Dev nD) : W1 m ρ c (Proc.devRef .tc main_v0) = biasRow (m ((c : Thread nD τ).loc main_arg9)) := by
  show StableHlo.after hostOps0 (W0 m ρ c) (Proc.devRef .tc main_v0) = _
  after_results
  rfl
theorem W1_main_v1 (c : Dev nD) : W1 m ρ c (Proc.devRef .tc main_v1) = biasRow (m ((c : Thread nD τ).loc main_arg11)) := by
  show StableHlo.after hostOps0 (W0 m ρ c) (Proc.devRef .tc main_v1) = _
  after_results
  rfl

/-! ## Boundary 1 -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg0) = m ((c : Thread nD τ).loc main_arg0))
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg8) = m ((c : Thread nD τ).loc main_arg8))
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg2) = m ((c : Thread nD τ).loc main_arg2))
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg3) = m ((c : Thread nD τ).loc main_arg3))
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg4) = m ((c : Thread nD τ).loc main_arg4))
theorem W1_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg10) = m ((c : Thread nD τ).loc main_arg10))
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg1) = m ((c : Thread nD τ).loc main_arg1))
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg5) = m ((c : Thread nD τ).loc main_arg5))
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg6) = m ((c : Thread nD τ).loc main_arg6))
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (rfl : W0 m ρ c (Proc.devRef .tc main_arg7) = m ((c : Thread nD τ).loc main_arg7))

/-! ## Boundary 2 -/

theorem W2_main_arg8 (c : Dev nD) : W2 m ρ c (Proc.devRef .tc main_arg8) = m ((c : Thread nD τ).loc main_arg8) :=
  (W2_arr m ρ c 1).trans (((dat0 (V1 m ρ) c).arrAt_in 1 rfl _).trans ((A_eq0 (V1 m ρ) c 1).trans (W1_main_arg8 m ρ c)))
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W2_main_v0 (c : Dev nD) : W2 m ρ c (Proc.devRef .tc main_v0) = biasRow (m ((c : Thread nD τ).loc main_arg9)) :=
  (W2_of_ne m ρ c main_v0 (by decide)).trans (W1_main_v0 m ρ c)
theorem W2_main_v1 (c : Dev nD) : W2 m ρ c (Proc.devRef .tc main_v1) = biasRow (m ((c : Thread nD τ).loc main_arg11)) :=
  (W2_of_ne m ρ c main_v1 (by decide)).trans (W1_main_v1 m ρ c)

/-! ## Boundary 3 -/

theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg8 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg2 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg3 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
theorem W3_main_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg10 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg1 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg5 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg6 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg7 m ρ c)
theorem W3_main_v0 (c : Dev nD) : W3 m ρ c (Proc.devRef .tc main_v0) = biasRow (m ((c : Thread nD τ).loc main_arg9)) :=
  (StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_v0 m ρ c)
theorem W3_main_v1 (c : Dev nD) : W3 m ρ c (Proc.devRef .tc main_v1) = biasRow (m ((c : Thread nD τ).loc main_arg11)) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_v1 m ρ c)

/-! ## Boundary 4 -/

theorem W4_main_arg8 (c : Dev nD) : W4 m ρ c (Proc.devRef .tc main_arg8) = m ((c : Thread nD τ).loc main_arg8) :=
  (W4_of_ne m ρ c main_arg8 (by decide)).trans (W3_main_arg8 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg10 (c : Dev nD) : W4 m ρ c (Proc.devRef .tc main_arg10) = m ((c : Thread nD τ).loc main_arg10) :=
  (W4_arr m ρ c 2).trans (((dat1 (V3 m ρ) c).arrAt_in 2 rfl _).trans ((A_eq1 (V3 m ρ) c 2).trans (W3_main_arg10 m ρ c)))
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W4_main_v0 (c : Dev nD) : W4 m ρ c (Proc.devRef .tc main_v0) = biasRow (m ((c : Thread nD τ).loc main_arg9)) :=
  (W4_arr m ρ c 1).trans (((dat1 (V3 m ρ) c).arrAt_in 1 rfl _).trans ((A_eq1 (V3 m ρ) c 1).trans (W3_main_v0 m ρ c)))
theorem W4_main_v1 (c : Dev nD) : W4 m ρ c (Proc.devRef .tc main_v1) = biasRow (m ((c : Thread nD τ).loc main_arg11)) :=
  (W4_of_ne m ρ c main_v1 (by decide)).trans (W3_main_v1 m ρ c)

/-! ## Boundary 5 -/

theorem W5_main_arg8 (c : Dev nD) : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg8 m ρ c)
theorem W5_main_arg10 (c : Dev nD) : W5 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg10 m ρ c)
theorem W5_main_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg1 m ρ c)
theorem W5_main_arg5 (c : Dev nD) : W5 m ρ c (Proc.devRef .tc main_arg5) = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg5 m ρ c)
theorem W5_main_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg6 m ρ c)
theorem W5_main_arg7 (c : Dev nD) : W5 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg7 m ρ c)
theorem W5_main_v0 (c : Dev nD) : W5 m ρ c (Proc.devRef .tc main_v0) = biasRow (m ((c : Thread nD τ).loc main_arg9)) :=
  (StableHlo.after_of_forall_not_mem (b := Proc.devRef .tc main_v0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v0 m ρ c)
theorem W5_main_v1 (c : Dev nD) : W5 m ρ c (Proc.devRef .tc main_v1) = biasRow (m ((c : Thread nD τ).loc main_arg11)) :=
  (StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_v1 m ρ c)

/-! ## Boundary 6 -/

theorem W6_main_arg8 (c : Dev nD) : W6 m ρ c (Proc.devRef .tc main_arg8) = m ((c : Thread nD τ).loc main_arg8) :=
  (W6_of_ne m ρ c main_arg8 (by decide)).trans (W5_main_arg8 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W6_main_v0 (c : Dev nD) : W6 m ρ c (Proc.devRef .tc main_v0) = biasRow (m ((c : Thread nD τ).loc main_arg9)) :=
  (W6_of_ne m ρ c main_v0 (by decide)).trans (W5_main_v0 m ρ c)
theorem W6_main_v1 (c : Dev nD) : W6 m ρ c (Proc.devRef .tc main_v1) = biasRow (m ((c : Thread nD τ).loc main_arg11)) :=
  (W6_arr m ρ c 1).trans (((dat2 (V5 m ρ) c).arrAt_in 1 rfl _).trans ((A_eq2 (V5 m ρ) c 1).trans (W5_main_v1 m ρ c)))

/-! ## Boundary 7 -/

theorem W7_main_arg10 (c : Dev nD) : W7 m ρ c (Proc.devRef .tc main_arg10) = m ((c : Thread nD τ).loc main_arg10) :=
  (W7_of_ne m ρ c main_arg10 (by decide)).trans (W6_main_arg10 m ρ c)
theorem W7_main_arg5 (c : Dev nD) : W7 m ρ c (Proc.devRef .tc main_arg5) = m ((c : Thread nD τ).loc main_arg5) :=
  (W7_of_ne m ρ c main_arg5 (by decide)).trans (W6_main_arg5 m ρ c)
theorem W7_main_arg6 (c : Dev nD) : W7 m ρ c (Proc.devRef .tc main_arg6) = m ((c : Thread nD τ).loc main_arg6) :=
  (W7_of_ne m ρ c main_arg6 (by decide)).trans (W6_main_arg6 m ρ c)
theorem W7_main_arg7 (c : Dev nD) : W7 m ρ c (Proc.devRef .tc main_arg7) = m ((c : Thread nD τ).loc main_arg7) :=
  (W7_of_ne m ρ c main_arg7 (by decide)).trans (W6_main_arg7 m ρ c)
theorem W7_main_v0 (c : Dev nD) : W7 m ρ c (Proc.devRef .tc main_v0) = biasRow (m ((c : Thread nD τ).loc main_arg9)) :=
  (W7_of_ne m ρ c main_v0 (by decide)).trans (W6_main_v0 m ρ c)
theorem W7_main_v1 (c : Dev nD) : W7 m ρ c (Proc.devRef .tc main_v1) = biasRow (m ((c : Thread nD τ).loc main_arg11)) :=
  (W7_of_ne m ρ c main_v1 (by decide)).trans (W6_main_v1 m ρ c)

/-! ## Boundary 8 -/

theorem W8_main_arg10 (c : Dev nD) : W8 m ρ c (Proc.devRef .tc main_arg10) = m ((c : Thread nD τ).loc main_arg10) :=
  (StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_arg10 m ρ c)
theorem W8_main_arg5 (c : Dev nD) : W8 m ρ c (Proc.devRef .tc main_arg5) = m ((c : Thread nD τ).loc main_arg5) :=
  (StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_arg5 m ρ c)
theorem W8_main_arg6 (c : Dev nD) : W8 m ρ c (Proc.devRef .tc main_arg6) = m ((c : Thread nD τ).loc main_arg6) :=
  (StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_arg6 m ρ c)
theorem W8_main_arg7 (c : Dev nD) : W8 m ρ c (Proc.devRef .tc main_arg7) = m ((c : Thread nD τ).loc main_arg7) :=
  (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_arg7 m ρ c)
theorem W8_main_v0 (c : Dev nD) : W8 m ρ c (Proc.devRef .tc main_v0) = biasRow (m ((c : Thread nD τ).loc main_arg9)) :=
  (StableHlo.after_of_forall_not_mem (b := Proc.devRef .tc main_v0) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_v0 m ρ c)
theorem W8_main_v1 (c : Dev nD) : W8 m ρ c (Proc.devRef .tc main_v1) = biasRow (m ((c : Thread nD τ).loc main_arg11)) :=
  (StableHlo.after_of_forall_not_mem (b := Proc.devRef .tc main_v1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_main_v1 m ρ c)

/-! ## Boundary 9 -/

theorem W9_main_arg5 (c : Dev nD) : W9 m ρ c (Proc.devRef .tc main_arg5) = m ((c : Thread nD τ).loc main_arg5) :=
  (W9_of_ne m ρ c main_arg5 (by decide)).trans (W8_main_arg5 m ρ c)
theorem W9_main_arg6 (c : Dev nD) : W9 m ρ c (Proc.devRef .tc main_arg6) = m ((c : Thread nD τ).loc main_arg6) :=
  (W9_of_ne m ρ c main_arg6 (by decide)).trans (W8_main_arg6 m ρ c)
theorem W9_main_arg7 (c : Dev nD) : W9 m ρ c (Proc.devRef .tc main_arg7) = m ((c : Thread nD τ).loc main_arg7) :=
  (W9_of_ne m ρ c main_arg7 (by decide)).trans (W8_main_arg7 m ρ c)
theorem W9_main_v1 (c : Dev nD) : W9 m ρ c (Proc.devRef .tc main_v1) = biasRow (m ((c : Thread nD τ).loc main_arg11)) :=
  (W9_of_ne m ρ c main_v1 (by decide)).trans (W8_main_v1 m ρ c)

/-! ## Boundary 10 -/

theorem W10_main_v1 (c : Dev nD) : W10 m ρ c (Proc.devRef .tc main_v1) = biasRow (m ((c : Thread nD τ).loc main_arg11)) :=
  (StableHlo.after_of_forall_not_mem (b := Proc.devRef .tc main_v1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_main_v1 m ρ c)

/-! ## The first result array, from the boundary where it is complete to the end -/

theorem W11_main_v32 (c : Dev nD) : W11 m ρ c (Proc.devRef .tc main_v32) = W6 m ρ c (Proc.devRef .tc main_v32) :=
  calc W11 m ρ c (Proc.devRef .tc main_v32)
    _ = W10 m ρ c (Proc.devRef .tc main_v32) := W11_of_ne m ρ c main_v32 (by decide)
    _ = W9 m ρ c (Proc.devRef .tc main_v32) := (StableHlo.after_of_forall_not_mem (b := Proc.devRef .tc main_v32) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W8 m ρ c (Proc.devRef .tc main_v32) := W9_of_ne m ρ c main_v32 (by decide)
    _ = W7 m ρ c (Proc.devRef .tc main_v32) := (StableHlo.after_of_forall_not_mem (b := Proc.devRef .tc main_v32) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v32) := W7_of_ne m ρ c main_v32 (by decide)

end Cert.KernelIdeal.Carry

end
-- ==== Proof.Stages.lean ====
/-
  One graph-convolution embedding, stage by stage, as whole-array functions.

  The embedding of one graph is
      H₁ = X · W₁,   G₁ = A · H₁,   Z = selu (G₁ + b₁),   H₂ = Z · W₂,   G₂ = A · H₂,   Y = G₂ + b₂,
      out (r, ·) = Y (r, ·) / max (‖Y (r, ·)‖₂, ε),
  where the sparse matrix A is given by its coordinate list: entry e contributes vals e · M (cols e, ·) to row
  rows e of A · M (a row gather, a scaling and a scatter-add into zeros). Each stage is written here once, as the
  whole-array operations the plain program applies, so that both programs' results can be stated as ONE composed
  term of the argument arrays.
-/
import proofs.«152458_j67903432950131_2_alg».proof.Proof.Gen.ReferenceIdeal
import Idealize.ShloMosaic.PureOps.Ideal

noncomputable section

namespace Cert.Stages

open Idealize.ShloMosaic Cert.ReferenceIdeal Cert.ReferenceIdeal.Gen

variable {F : FTy → Type} [FloatOps F]

/-- The all-zero matrix a scatter-add starts from. -/
def zeros : FVec F S100000x64 .f32 :=
  broadcastInDim S100000x64 ![] bcast_S_S100000x64 (constant S_ .f32 0x00000000#32)

/-- Row numbers as a column of start indices, a negative one counted from the end (n + 100000). -/
def startRows (cols : IVec S1200000 32) : IVec S1200000x1 32 :=
  broadcastInDim S1200000x1 ![0] bcast_S1200000_S1200000x1_0
    (select (cmpi .slt cols (broadcastInDim S1200000 ![] bcast_S_S1200000 (constantI S_ 32 0#32)))
      (addi cols (broadcastInDim S1200000 ![] bcast_S_S1200000 (constantI S_ 32 100000#32))) cols)

/-- The edge weights repeated along the 64 features. -/
def weights (vals : FVec F S1200000 .f32) : FVec F S1200000x64 .f32 :=
  broadcastInDim S1200000x64 ![0, 1] bcast_S1200000x1_S1200000x64_0_1
    (broadcastInDim S1200000x1 ![0] bcast_S1200000_S1200000x1_0 vals)

/-- The scaled rows: edge e holds vals e · M (cols e, ·). -/
def scaledRows (cols : IVec S1200000 32) (vals : FVec F S1200000 .f32) (M : FVec F S100000x64 .f32) :
    FVec F S1200000x64 .f32 :=
  mulf (Host.gather gather_S100000x64_S1200000x1_S1200000x64_1_0_n_n_0_1_164 M (startRows cols)) (weights vals)

/-- Scatter-add of per-edge rows into zeros at the rows `rows`. -/
def sumInto (rows : IVec S1200000 32) (U : FVec F S1200000x64 .f32) : FVec F S100000x64 .f32 :=
  Host.scatterAdd scatter_S100000x64_S1200000x1_S1200000x64_1_0_0_1 zeros
    (broadcastInDim S1200000x1 ![0] bcast_S1200000_S1200000x1_0 rows) U

/-- A · M for the sparse matrix A given by (rows, cols, vals). -/
def spmm (rows cols : IVec S1200000 32) (vals : FVec F S1200000 .f32) (M : FVec F S100000x64 .f32) :
    FVec F S100000x64 .f32 :=
  sumInto rows (scaledRows cols vals M)

/-- X · W₁. -/
def layer1 (X : FVec F S100000x256 .f32) (W1 : FVec F S256x64 .f32) : FVec F S100000x64 .f32 :=
  Host.dotGeneral dot_S100000x256_S256x64_S100000x64_1_0_0_1_n_n none X W1

/-- Z · W₂. -/
def layer2 (Z : FVec F S100000x64 .f32) (W2 : FVec F S64x64 .f32) : FVec F S100000x64 .f32 :=
  Host.dotGeneral dot_S100000x64_S64x64_S100000x64_1_0_0_1_n_n none Z W2

/-- G + b, the bias repeated along the rows. -/
def addBias (G : FVec F S100000x64 .f32) (b : FVec F S64 .f32) : FVec F S100000x64 .f32 :=
  addf G (broadcastInDim S100000x64 ![0, 1] bcast_S1x64_S100000x64_0_1 (broadcastInDim S1x64 ![1] bcast_S64_S1x64_1 b))

/-- A scalar constant repeated over the matrix. -/
def splat (w : BitVec 32) : FVec F S100000x64 .f32 :=
  broadcastInDim S100000x64 ![] bcast_S_S100000x64 (constant S_ .f32 w)

/-- selu, as the plain program spells it: scale · (x if x > 0 else alpha · expm1 (0 if x > 0 else x)). -/
def selu (x : FVec F S100000x64 .f32) : FVec F S100000x64 .f32 :=
  mulf (splat 0x3F867D5F#32)
    (select (cmpf .ogt x (splat 0x00000000#32)) x
      (mulf (splat 0x3FD62D7D#32) (Host.expm1 (select (cmpf .ogt x (splat 0x00000000#32)) (splat 0x00000000#32) x))))

/-- Each row divided by the larger of its Euclidean norm and ε. -/
def normRows (Y : FVec F S100000x64 .f32) : FVec F S100000x64 .f32 :=
  Host.divf Y (broadcastInDim S100000x64 ![0, 1] bcast_S100000x1_S100000x64_0_1
    (maximumf
      (Host.sqrt (broadcastInDim S100000x1 ![0] bcast_S100000_S100000x1_0
        (Host.reduceAdd (mulf Y Y) (constant S_ .f32 0x00000000#32) reducesTo_S100000x64_S100000_d1 h_S_)))
      (broadcastInDim S100000x1 ![] bcast_S_S100000x1 (constant S_ .f32 0x2B8CBCCC#32))))

/-- The hidden layer after the first propagation: selu (A · (X · W₁) + b₁). -/
def hidden (X : FVec F S100000x256 .f32) (rows cols : IVec S1200000 32) (vals : FVec F S1200000 .f32)
    (W1 : FVec F S256x64 .f32) (b1 : FVec F S64 .f32) : FVec F S100000x64 .f32 :=
  selu (addBias (spmm rows cols vals (layer1 X W1)) b1)

/-- The whole embedding of one graph. -/
def embed (X : FVec F S100000x256 .f32) (rows cols : IVec S1200000 32) (vals : FVec F S1200000 .f32)
    (W1 : FVec F S256x64 .f32) (b1 : FVec F S64 .f32) (W2 : FVec F S64x64 .f32) (b2 : FVec F S64 .f32) :
    FVec F S100000x64 .f32 :=
  normRows (addBias (spmm rows cols vals (layer2 (hidden X rows cols vals W1 b1) W2)) b2)

end Cert.Stages

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«152458_j67903432950131_2_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Layer1A.lean ====
/-
  Region 0: the first dense layer, graph one.

  The region walks the 100000 rows of X in ten blocks of 10000; at each block it multiplies the block by the whole
  W₁ on the matrix unit, into a zero accumulator. A row of a product depends on that row of the left operand only, so
  the block the region writes back at point t is rows 10000·t … 10000·t + 9999 of the whole product X · W₁, and the
  ten blocks tile the result: after the region the output array holds X · W₁.
-/
import proofs.«152458_j67903432950131_2_alg».proof.Proof.Gen.KernelIdeal.Frame
import proofs.«152458_j67903432950131_2_alg».proof.Proof.Stages
import proofs.«152458_j67903432950131_2_alg».proof.Proof.LibRowBlockMatmul
import Idealize.ShloMosaic.Lib.Pipeline.Value
import Idealize.ShloMosaic.Lib.ValueIdx

set_option maxRecDepth 16384

noncomputable section

namespace Cert.KernelIdeal.Layer1A

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the whole product X · W₁. -/
abbrev product (X : FVec Ideal S100000x256 .f32) (W : FVec Ideal S256x64 .f32) : S100000x64.Idx → Elt Ideal .bf16 :=
  Cert.Stages.layer1 (F := Ideal) X W

/-- The body's payload is the matrix unit's plain product of its two blocks into zeros (on the extended reals the
    changes of float format around it are the identity). -/
theorem pay_eq (x0 : Vec Ideal S10000x256 .f32) (x1 : Vec Ideal S256x64 .f32) :
    k0_pay1 x0 x1 = (FloatOps.matmul (F := Ideal) (φ₁ := .bf16) (φ₂ := .bf16) (DotDims.plain 10000 256 64) none x0 x1 (constant ⟨2, ![10000, 64]⟩ .f32 0x00000000#32) : S10000x64.Idx → EReal) := rfl

/-- The index maps over the grid: the left operand's block and the output's block move together down the rows, the
    right operand is one block. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product. -/
theorem flushed_eq (c : Dev nD) (t : Fin cfg0.N) :
    (dat0 V c).flushed 2 t = ((cfg0.win 2).blk t).view.read (Elt Ideal) (product (V c main_arg0) (V c main_arg8)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x64) hz]
  rw [pay_eq]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hemb : ((cfg0.win 2).blk t).view.emb (ix2 p q)
      = ix2 (⟨win0_2.index t (0 : Fin 2) * 10000 + p.val, by omega⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  show FloatOps.matmul (F := Ideal) (φ₁ := .bf16) (φ₂ := .bf16) (DotDims.plain 10000 256 64) none (iblk0 V c 0 t) (iblk0 V c 1 t) (constant ⟨2, ![10000, 64]⟩ .f32 0x00000000#32) (ix2 p q)
    = product (V c main_arg0) (V c main_arg8) (((cfg0.win 2).blk t).view.emb (ix2 p q))
  rw [hemb]
  refine Cert.RowBlockMatmul.rowBlock_apply _ (V c main_arg0) (V c main_arg8) (iblk0 V c 0 t) (iblk0 V c 1 t) p q _ (fun k => ?_) (fun k => ?_)
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 256 + 1 * k.val = k.val; omega
  · show V c main_arg8 (((cfg0.win 1).blk t).view.emb (ix2 k q)) = V c main_arg8 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * q.val = q.val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v2).slice (win0_2.rect t)).set ↔ _
  rw [View.set_slice_whole, Rect.mem_set_unit]
  exact Iff.rfl

/-- The ten blocks tile the output array: row r is in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array holds X · W₁. -/
theorem final (c : Dev nD) : (dat0 V c).arrAt 2 cfg0.N = product (V c main_arg0) (V c main_arg8) :=
  (dat0 V c).arrAt_eq_of_cover 2 _ (fun t _ => flushed_eq V c t) cover

end Cert.KernelIdeal.Layer1A

end
-- ==== Proof.Layer1B.lean ====
/-
  Region 3: the first dense layer, graph two.

  The region walks the 100000 rows of X in ten blocks of 10000; at each block it multiplies the block by the whole
  W₁ on the matrix unit, into a zero accumulator. A row of a product depends on that row of the left operand only, so
  the block the region writes back at point t is rows 10000·t … 10000·t + 9999 of the whole product X · W₁, and the
  ten blocks tile the result: after the region the output array holds X · W₁.
-/
import proofs.«152458_j67903432950131_2_alg».proof.Proof.Gen.KernelIdeal.Frame
import proofs.«152458_j67903432950131_2_alg».proof.Proof.Stages
import proofs.«152458_j67903432950131_2_alg».proof.Proof.LibRowBlockMatmul
import Idealize.ShloMosaic.Lib.Pipeline.Value
import Idealize.ShloMosaic.Lib.ValueIdx

set_option maxRecDepth 16384

noncomputable section

namespace Cert.KernelIdeal.Layer1B

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the whole product X · W₁. -/
abbrev product (X : FVec Ideal S100000x256 .f32) (W : FVec Ideal S256x64 .f32) : S100000x64.Idx → Elt Ideal .bf16 :=
  Cert.Stages.layer1 (F := Ideal) X W

/-- The body's payload is the matrix unit's plain product of its two blocks into zeros (on the extended reals the
    changes of float format around it are the identity). -/
theorem pay_eq (x0 : Vec Ideal S10000x256 .f32) (x1 : Vec Ideal S256x64 .f32) :
    k3_pay1 x0 x1 = (FloatOps.matmul (F := Ideal) (φ₁ := .bf16) (φ₂ := .bf16) (DotDims.plain 10000 256 64) none x0 x1 (constant ⟨2, ![10000, 64]⟩ .f32 0x00000000#32) : S10000x64.Idx → EReal) := rfl

/-- The index maps over the grid: the left operand's block and the output's block move together down the rows, the
    right operand is one block. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the whole product. -/
theorem flushed_eq (c : Dev nD) (t : Fin cfg3.N) :
    (dat3 V c).flushed 2 t = ((cfg3.win 2).blk t).view.read (Elt Ideal) (product (V c main_arg1) (V c main_arg8)) := by
  show (cfg3.win 2).cut (grid3.coords t) ((dat3 V c).after 2 t) = _
  rw [after3_2]
  unfold out3_2
  rw [View.canon_unit_zero hz]
  simp only [View.ld_unit_zero (S := S10000x256) hz, View.ld_unit_zero (S := S256x64) hz]
  rw [pay_eq]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hemb : ((cfg3.win 2).blk t).view.emb (ix2 p q)
      = ix2 (⟨win3_2.index t (0 : Fin 2) * 10000 + p.val, by omega⟩ : Fin 100000) q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 64 + 1 * q.val = q.val; omega
  show FloatOps.matmul (F := Ideal) (φ₁ := .bf16) (φ₂ := .bf16) (DotDims.plain 10000 256 64) none (iblk3 V c 0 t) (iblk3 V c 1 t) (constant ⟨2, ![10000, 64]⟩ .f32 0x00000000#32) (ix2 p q)
    = product (V c main_arg1) (V c main_arg8) (((cfg3.win 2).blk t).view.emb (ix2 p q))
  rw [hemb]
  refine Cert.RowBlockMatmul.rowBlock_apply _ (V c main_arg1) (V c main_arg8) (iblk3 V c 0 t) (iblk3 V c 1 t) p q _ (fun k => ?_) (fun k => ?_)
  · show V c main_arg1 (((cfg3.win 0).blk t).view.emb (ix2 p k)) = V c main_arg1 (ix2 _ k)
    refine congrArg _ (funext fun a => Fin.ext ?_)
    match a with
    | ⟨0, _⟩ => show win3_0.index t (0 : Fin 2) * 10000 + 1 * p.val = win3_2.index t (0 : Fin 2) * 10000 + p.val; omega
    | ⟨1, _⟩ => show win3_0.index t (1 : Fin 2) * 256 + 1 * k.val = k.val; omega
  · show V c main_arg8 (((cfg3.win 1).blk t).view.emb (ix2 k q)) = V c main_arg8 (ix2 k q)
    refine congrArg _ (funext fun a => Fin.ext ?_)
    match a with
    | ⟨0, _⟩ => show win3_1.index t (0 : Fin 2) * 256 + 1 * k.val = k.val; omega
    | ⟨1, _⟩ => show win3_1.index t (1 : Fin 2) * 64 + 1 * q.val = q.val; omega

/-- An index of the output array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v33).slice (win3_2.rect t)).set ↔ _
  rw [View.set_slice_whole, Rect.mem_set_unit]
  exact Iff.rfl

/-- The ten blocks tile the output array: row r is in block r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the output array holds X · W₁. -/
theorem final (c : Dev nD) : (dat3 V c).arrAt 2 cfg3.N = product (V c main_arg1) (V c main_arg8) :=
  (dat3 V c).arrAt_eq_of_cover 2 _ (fun t _ => flushed_eq V c t) cover

end Cert.KernelIdeal.Layer1B

end
-- ==== Proof.SeluPoint.lean ====
/-
  The scaled exponential linear unit, two spellings, one function.

  On the extended reals  selu y = s · (y if y > 0, else a · (e^y − 1)).  One program computes the second branch as
  a · (exp (min y 0) − 1), clamping the exponent's argument; the other as a · expm1 (0 if y > 0 else y). Where the
  second branch is taken y ≤ 0, so min y 0 = y and the guarded argument is y as well, and expm1 y is exp y − 1: the
  two are the same extended real for every y, the infinities included.
-/
import Idealize.ShloMosaic.PureOps.Ideal
import Idealize.ShloMosaic.PureOps.Ideal.Laws

namespace Cert.SeluPoint

open Idealize.ShloMosaic

/-- The f32 word 0x3F800000 is the number one. -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- selu with the second branch through exp of the clamped argument, minus one. -/
noncomputable def viaExp (y : EReal) : EReal :=
  Ideal.ofBits .f32 0x3F867D5F#32 *
    Scalar.select (Ideal.cmp .ogt y (Ideal.ofBits .f32 0x00000000#32)) y
      (Ideal.ofBits .f32 0x3FD62D7D#32 *
        (Ideal.exp (min y (Ideal.ofBits .f32 0x00000000#32)) - Ideal.ofBits .f32 0x3F800000#32))

/-- selu with the second branch through expm1 of the guarded argument. -/
noncomputable def viaExpm1 (y : EReal) : EReal :=
  Ideal.ofBits .f32 0x3F867D5F#32 *
    Scalar.select (Ideal.cmp .ogt y (Ideal.ofBits .f32 0x00000000#32)) y
      (Ideal.ofBits .f32 0x3FD62D7D#32 *
        Ideal.expm1 (Scalar.select (Ideal.cmp .ogt y (Ideal.ofBits .f32 0x00000000#32))
          (Ideal.ofBits .f32 0x00000000#32) y))

/-- The two spellings agree at every extended real. -/
theorem viaExp_eq_viaExpm1 (y : EReal) : viaExp y = viaExpm1 y := by
  unfold viaExp viaExpm1
  rw [Ideal.ofBits_zero_f32, ofBits_one_f32]
  by_cases h : (0 : EReal) < y
  · have hc : Ideal.cmp .ogt y 0 = 1#1 := by simp [Ideal.cmp, h]
    rw [hc]
    simp [Scalar.select]
  · have hc : Ideal.cmp .ogt y 0 = 0#1 := by simp [Ideal.cmp, h]
    rw [hc]
    have h01 : ¬ ((0#1 : BitVec 1) = 1#1) := by decide
    simp only [Scalar.select, if_neg h01]
    rw [min_eq_left (not_lt.mp h)]
    rfl

end Cert.SeluPoint
-- ==== Proof.RowNorm.lean ====
/-
  A row divided by the larger of its Euclidean norm and ε.

  For a row y of 64 extended reals:  y_q / max (sqrt (Σ_k y_k · y_k), ε),  with ε the f32 word 0x2B8CBCCC and the
  quotient the extended reals' division. Both programs normalise every row of a matrix this way.
-/
import Idealize.ShloMosaic.PureOps.Ideal

namespace Cert.RowNorm

open Idealize.ShloMosaic

/-- Entry q of the normalised row. -/
noncomputable def normOf (y : Fin 64 → EReal) (q : Fin 64) : EReal :=
  Ideal.div (y q) (max (Ideal.sqrt (∑ k : Fin 64, y k * y k)) (Ideal.ofBits .f32 0x2B8CBCCC#32))

end Cert.RowNorm
-- ==== Proof.Whole.lean ====
/-
  What the fused regions leave in their output arrays, as whole-array functions.

  · activated G B: selu (through expm1) of G plus the 1 × 64 bias row B, entry by entry;
  · fusedResult G B W: the activated matrix times W — the second dense layer on the activated features;
  · normResult G B: each row of G plus the bias row, divided by the larger of its Euclidean norm and ε.
-/
import proofs.«152458_j67903432950131_2_alg».proof.Proof.Stages
import proofs.«152458_j67903432950131_2_alg».proof.Proof.SeluPoint
import proofs.«152458_j67903432950131_2_alg».proof.Proof.RowNorm
import Idealize.ShloMosaic.Lib.ValueIdx

noncomputable section

namespace Cert.Whole

open Idealize.ShloMosaic Idealize.ShloMosaic.ValueIdx Cert.ReferenceIdeal

/-- selu of G plus the bias row, entry by entry. -/
def activated (G : FVec Ideal S100000x64 .f32) (B : FVec Ideal S1x64 .f32) : FVec Ideal S100000x64 .f32 :=
  fun i => Cert.SeluPoint.viaExpm1 (G i + B (ix2 (0 : Fin 1) (i 1)))

/-- The activated matrix times W. -/
def fusedResult (G : FVec Ideal S100000x64 .f32) (B : FVec Ideal S1x64 .f32) (W : FVec Ideal S64x64 .f32) :
    FVec Ideal S100000x64 .f32 :=
  Cert.Stages.layer2 (F := Ideal) (activated G B) W

/-- Each row of G plus the bias row, normalised. -/
def normResult (G : FVec Ideal S100000x64 .f32) (B : FVec Ideal S1x64 .f32) : FVec Ideal S100000x64 .f32 :=
  fun i => Cert.RowNorm.normOf (fun k => G (ix2 (i 0) k) + B (ix2 (0 : Fin 1) k)) (i 1)

/-- The activated matrix at (r, k). -/
theorem activated_apply (G : FVec Ideal S100000x64 .f32) (B : FVec Ideal S1x64 .f32) (r : Fin 100000) (k : Fin 64) :
    activated G B (ix2 r k) = Cert.SeluPoint.viaExpm1 (G (ix2 r k) + B (ix2 (0 : Fin 1) k)) := rfl

/-- The normalised matrix at (r, q). -/
theorem normResult_apply (G : FVec Ideal S100000x64 .f32) (B : FVec Ideal S1x64 .f32) (r : Fin 100000) (q : Fin 64) :
    normResult G B (ix2 r q) = Cert.RowNorm.normOf (fun k => G (ix2 r k) + B (ix2 (0 : Fin 1) k)) q := rfl

end Cert.Whole

end
-- ==== Proof.Layer2A.lean ====
/-
  Region 1: bias, activation and the second dense layer, graph one.

  The region walks the 100000 rows of G in twenty blocks of 5000. At each block it adds the bias row to every row,
  applies selu entry by entry — with the second branch computed as a · (exp (min y 0) − 1) — and multiplies the
  activated block by the whole W₂ on the matrix unit, into a zero accumulator. The activation is entrywise and a
  row of a product depends on that row of the left operand only, so what point t writes back is rows
  5000·t … 5000·t + 4999 of selu (G + b) · W₂, with selu in the spelling through expm1 (the two spellings are one
  function); the twenty blocks tile the result.
-/
import proofs.«152458_j67903432950131_2_alg».proof.Proof.Gen.KernelIdeal.Frame
import proofs.«152458_j67903432950131_2_alg».proof.Proof.Stages
import proofs.«152458_j67903432950131_2_alg».proof.Proof.LibRowBlockMatmul
import proofs.«152458_j67903432950131_2_alg».proof.Proof.SeluPoint
import proofs.«152458_j67903432950131_2_alg».proof.Proof.Whole
import Idealize.ShloMosaic.Lib.Pipeline.Value
import Idealize.ShloMosaic.Lib.ValueIdx
import Idealize.ShloMosaic.Lib.ValueLayout

set_option maxRecDepth 16384

noncomputable section

namespace Cert.KernelIdeal.Layer2A

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: selu (G + b) · W₂. -/
abbrev result (G : FVec Ideal S100000x64 .f32) (B : FVec Ideal S1x64 .f32) (W : FVec Ideal S64x64 .f32) :
    S100000x64.Idx → Elt Ideal .bf16 :=
  Cert.Whole.fusedResult G B W

/-- A block with the bias row added to each of its rows. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

theorem biased_apply (x0 : Vec Ideal S5000x64 .f32) (x1 : Vec Ideal S1x64 .f32) (p : Fin 5000) (k : Fin 64) :
    biased x0 x1 (ix2 p k) = x0 (ix2 p k) + x1 (ix2 (0 : Fin 1) k) := by
  unfold biased
  rw [addf_apply, shapeCast_self, shapeCast_self]
  exact congrArg (x0 (ix2 p k) + ·) (broadcastTo_1b_ab_apply x1 broadcasts_S1x64_S5000x64 p k)

/-- The activated block, in the region's own spelling of selu. -/
def activatedBlock (x0 : Vec Ideal S5000x64 .f32) (x1 : Vec Ideal S1x64 .f32) : S5000x64.Idx → EReal :=
  fun j => Cert.SeluPoint.viaExp (biased x0 x1 j)

/-- The body's payload is the matrix unit's plain product of the activated block and the W₂ block into zeros. -/
theorem pay_eq (x0 : Vec Ideal S5000x64 .f32) (x1 : Vec Ideal S1x64 .f32) (x2 : Vec Ideal S64x64 .f32) :
    k1_pay1 x0 x1 x2 = (FloatOps.matmul (F := Ideal) (φ₁ := .bf16) (φ₂ := .bf16) (DotDims.plain 5000 64 64) none
      (activatedBlock x0 x1) x2 (constant ⟨2, ![5000, 64]⟩ .f32 0x00000000#32) : S5000x64.Idx → EReal) := rfl

/-- The index maps over the grid: the input's block and the output's block move together down the rows, the bias
    row and W₂ are one block each. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the twenty row blocks is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

set_option maxHeartbeats 1600000 in
/-- What point t writes back is block t of the whole result. -/
theorem flushed_eq (c : Dev nD) (t : Fin cfg1.N) :
    (dat1 V c).flushed 3 t
      = ((cfg1.win 3).blk t).view.read (Elt Ideal) (result (V c main_v16) (V c main_v0) (V c main_arg10)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  rw [pay_eq]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  have hp : p.val < 5000 := p.isLt
  have hemb : ((cfg1.win 3).blk t).view.emb (ix2 p q)
      = ix2 (⟨win1_3.index t (0 : Fin 2) * 5000 + p.val, by omega⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 64 + 1 * q.val = q.val; omega
  show FloatOps.matmul (F := Ideal) (φ₁ := .bf16) (φ₂ := .bf16) (DotDims.plain 5000 64 64) none
      (activatedBlock (iblk1 V c 0 t) (iblk1 V c 1 t)) (iblk1 V c 2 t) (constant ⟨2, ![5000, 64]⟩ .f32 0x00000000#32) (ix2 p q)
    = result (V c main_v16) (V c main_v0) (V c main_arg10) (((cfg1.win 3).blk t).view.emb (ix2 p q))
  rw [hemb]
  refine Cert.RowBlockMatmul.rowBlock_apply _ (Cert.Whole.activated (V c main_v16) (V c main_v0)) (V c main_arg10)
    (activatedBlock (iblk1 V c 0 t) (iblk1 V c 1 t)) (iblk1 V c 2 t) p q _ (fun k => ?_) (fun k => ?_)
  · show Cert.SeluPoint.viaExp (biased (iblk1 V c 0 t) (iblk1 V c 1 t) (ix2 p k)) = _
    refine (congrArg Cert.SeluPoint.viaExp (biased_apply (iblk1 V c 0 t) (iblk1 V c 1 t) p k)).trans ?_
    refine (Cert.SeluPoint.viaExp_eq_viaExpm1 _).trans ?_
    refine congrArg Cert.SeluPoint.viaExpm1 (congrArg₂ (fun (a b : EReal) => a + b) ?_ ?_)
    · show V c main_v16 (((cfg1.win 0).blk t).view.emb (ix2 p k)) = V c main_v16 (ix2 _ k)
      refine congrArg _ (funext fun a => Fin.ext ?_)
      match a with
      | ⟨0, _⟩ => show win1_0.index t (0 : Fin 2) * 5000 + 1 * p.val = win1_3.index t (0 : Fin 2) * 5000 + p.val; omega
      | ⟨1, _⟩ => show win1_0.index t (1 : Fin 2) * 64 + 1 * k.val = k.val; omega
    · show V c main_v0 (((cfg1.win 1).blk t).view.emb (ix2 (0 : Fin 1) k)) = V c main_v0 (ix2 (0 : Fin 1) k)
      refine congrArg _ (funext fun a => Fin.ext ?_)
      match a with
      | ⟨0, _⟩ => show win1_1.index t (0 : Fin 2) * 1 + 1 * 0 = 0; omega
      | ⟨1, _⟩ => show win1_1.index t (1 : Fin 2) * 64 + 1 * k.val = k.val; omega
  · show V c main_arg10 (((cfg1.win 2).blk t).view.emb (ix2 k q)) = V c main_arg10 (ix2 k q)
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v17).slice (win1_3.rect t)).set ↔ _
  rw [View.set_slice_whole, Rect.mem_set_unit]
  exact Iff.rfl

/-- The twenty blocks tile the output array: row r is in block r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array holds selu (G + b) · W₂. -/
theorem final (c : Dev nD) :
    (dat1 V c).arrAt 3 cfg1.N = result (V c main_v16) (V c main_v0) (V c main_arg10) :=
  (dat1 V c).arrAt_eq_of_cover 3 _ (fun t _ => flushed_eq V c t) cover

end Cert.KernelIdeal.Layer2A

end
-- ==== Proof.Layer2B.lean ====
/-
  Region 4: bias, activation and the second dense layer, graph two.

  The region walks the 100000 rows of G in twenty blocks of 5000. At each block it adds the bias row to every row,
  applies selu entry by entry — with the second branch computed as a · (exp (min y 0) − 1) — and multiplies the
  activated block by the whole W₂ on the matrix unit, into a zero accumulator. The activation is entrywise and a
  row of a product depends on that row of the left operand only, so what point t writes back is rows
  5000·t … 5000·t + 4999 of selu (G + b) · W₂, with selu in the spelling through expm1 (the two spellings are one
  function); the twenty blocks tile the result.
-/
import proofs.«152458_j67903432950131_2_alg».proof.Proof.Gen.KernelIdeal.Frame
import proofs.«152458_j67903432950131_2_alg».proof.Proof.Stages
import proofs.«152458_j67903432950131_2_alg».proof.Proof.LibRowBlockMatmul
import proofs.«152458_j67903432950131_2_alg».proof.Proof.SeluPoint
import proofs.«152458_j67903432950131_2_alg».proof.Proof.Whole
import Idealize.ShloMosaic.Lib.Pipeline.Value
import Idealize.ShloMosaic.Lib.ValueIdx
import Idealize.ShloMosaic.Lib.ValueLayout

set_option maxRecDepth 16384

noncomputable section

namespace Cert.KernelIdeal.Layer2B

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: selu (G + b) · W₂. -/
abbrev result (G : FVec Ideal S100000x64 .f32) (B : FVec Ideal S1x64 .f32) (W : FVec Ideal S64x64 .f32) :
    S100000x64.Idx → Elt Ideal .bf16 :=
  Cert.Whole.fusedResult G B W

/-- A block with the bias row added to each of its rows. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

theorem biased_apply (x0 : Vec Ideal S5000x64 .f32) (x1 : Vec Ideal S1x64 .f32) (p : Fin 5000) (k : Fin 64) :
    biased x0 x1 (ix2 p k) = x0 (ix2 p k) + x1 (ix2 (0 : Fin 1) k) := by
  unfold biased
  rw [addf_apply, shapeCast_self, shapeCast_self]
  exact congrArg (x0 (ix2 p k) + ·) (broadcastTo_1b_ab_apply x1 broadcasts_S1x64_S5000x64 p k)

/-- The activated block, in the region's own spelling of selu. -/
def activatedBlock (x0 : Vec Ideal S5000x64 .f32) (x1 : Vec Ideal S1x64 .f32) : S5000x64.Idx → EReal :=
  fun j => Cert.SeluPoint.viaExp (biased x0 x1 j)

/-- The body's payload is the matrix unit's plain product of the activated block and the W₂ block into zeros. -/
theorem pay_eq (x0 : Vec Ideal S5000x64 .f32) (x1 : Vec Ideal S1x64 .f32) (x2 : Vec Ideal S64x64 .f32) :
    k4_pay1 x0 x1 x2 = (FloatOps.matmul (F := Ideal) (φ₁ := .bf16) (φ₂ := .bf16) (DotDims.plain 5000 64 64) none
      (activatedBlock x0 x1) x2 (constant ⟨2, ![5000, 64]⟩ .f32 0x00000000#32) : S5000x64.Idx → EReal) := rfl

/-- The index maps over the grid: the input's block and the output's block move together down the rows, the bias
    row and W₂ are one block each. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every one of the twenty row blocks is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

set_option maxHeartbeats 1600000 in
/-- What point t writes back is block t of the whole result. -/
theorem flushed_eq (c : Dev nD) (t : Fin cfg4.N) :
    (dat4 V c).flushed 3 t
      = ((cfg4.win 3).blk t).view.read (Elt Ideal) (result (V c main_v47) (V c main_v0) (V c main_arg10)) := by
  show (cfg4.win 3).cut (grid4.coords t) ((dat4 V c).after 3 t) = _
  rw [after4_3]
  unfold out4_3
  rw [View.canon_unit_zero hz]
  simp only [View.ld_unit_zero (S := S5000x64) hz, View.ld_unit_zero (S := S1x64) hz, View.ld_unit_zero (S := S64x64) hz]
  rw [pay_eq]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  have hp : p.val < 5000 := p.isLt
  have hemb : ((cfg4.win 3).blk t).view.emb (ix2 p q)
      = ix2 (⟨win4_3.index t (0 : Fin 2) * 5000 + p.val, by omega⟩ : Fin 100000) q := by
    funext a; apply Fin.ext
    match a with
    | ⟨0, _⟩ => show win4_3.index t (0 : Fin 2) * 5000 + 1 * p.val = win4_3.index t (0 : Fin 2) * 5000 + p.val; omega
    | ⟨1, _⟩ => show win4_3.index t (1 : Fin 2) * 64 + 1 * q.val = q.val; omega
  show FloatOps.matmul (F := Ideal) (φ₁ := .bf16) (φ₂ := .bf16) (DotDims.plain 5000 64 64) none
      (activatedBlock (iblk4 V c 0 t) (iblk4 V c 1 t)) (iblk4 V c 2 t) (constant ⟨2, ![5000, 64]⟩ .f32 0x00000000#32) (ix2 p q)
    = result (V c main_v47) (V c main_v0) (V c main_arg10) (((cfg4.win 3).blk t).view.emb (ix2 p q))
  rw [hemb]
  refine Cert.RowBlockMatmul.rowBlock_apply _ (Cert.Whole.activated (V c main_v47) (V c main_v0)) (V c main_arg10)
    (activatedBlock (iblk4 V c 0 t) (iblk4 V c 1 t)) (iblk4 V c 2 t) p q _ (fun k => ?_) (fun k => ?_)
  · show Cert.SeluPoint.viaExp (biased (iblk4 V c 0 t) (iblk4 V c 1 t) (ix2 p k)) = _
    refine (congrArg Cert.SeluPoint.viaExp (biased_apply (iblk4 V c 0 t) (iblk4 V c 1 t) p k)).trans ?_
    refine (Cert.SeluPoint.viaExp_eq_viaExpm1 _).trans ?_
    refine congrArg Cert.SeluPoint.viaExpm1 (congrArg₂ (fun (a b : EReal) => a + b) ?_ ?_)
    · show V c main_v47 (((cfg4.win 0).blk t).view.emb (ix2 p k)) = V c main_v47 (ix2 _ k)
      refine congrArg _ (funext fun a => Fin.ext ?_)
      match a with
      | ⟨0, _⟩ => show win4_0.index t (0 : Fin 2) * 5000 + 1 * p.val = win4_3.index t (0 : Fin 2) * 5000 + p.val; omega
      | ⟨1, _⟩ => show win4_0.index t (1 : Fin 2) * 64 + 1 * k.val = k.val; omega
    · show V c main_v0 (((cfg4.win 1).blk t).view.emb (ix2 (0 : Fin 1) k)) = V c main_v0 (ix2 (0 : Fin 1) k)
      refine congrArg _ (funext fun a => Fin.ext ?_)
      match a with
      | ⟨0, _⟩ => show win4_1.index t (0 : Fin 2) * 1 + 1 * 0 = 0; omega
      | ⟨1, _⟩ => show win4_1.index t (1 : Fin 2) * 64 + 1 * k.val = k.val; omega
  · show V c main_arg10 (((cfg4.win 2).blk t).view.emb (ix2 k q)) = V c main_arg10 (ix2 k q)
    refine congrArg _ (funext fun a => Fin.ext ?_)
    match a with
    | ⟨0, _⟩ => show win4_2.index t (0 : Fin 2) * 64 + 1 * k.val = k.val; omega
    | ⟨1, _⟩ => show win4_2.index t (1 : Fin 2) * 64 + 1 * q.val = q.val; omega

/-- An index of the output array is in point t's block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v48).slice (win4_3.rect t)).set ↔ _
  rw [View.set_slice_whole, Rect.mem_set_unit]
  exact Iff.rfl

/-- The twenty blocks tile the output array: row r is in block r / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region the output array holds selu (G + b) · W₂. -/
theorem final (c : Dev nD) :
    (dat4 V c).arrAt 3 cfg4.N = result (V c main_v47) (V c main_v0) (V c main_arg10) :=
  (dat4 V c).arrAt_eq_of_cover 3 _ (fun t _ => flushed_eq V c t) cover

end Cert.KernelIdeal.Layer2B

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.NormA.lean ====
/-
  Region 2: the last bias and the row normalisation, graph one.

  The region walks the 100000 rows of G in twenty blocks of 5000. At each block it adds the bias row to every row,
  and divides each row y by max (sqrt (Σ_k y_k²), ε). Each row of the result depends on that row of G only, so
  what point t writes back is rows 5000·t … 5000·t + 4999 of the whole normalised matrix, and the twenty blocks
  tile it.
-/
import proofs.«152458_j67903432950131_2_alg».proof.Proof.Gen.KernelIdeal.Frame
import proofs.«152458_j67903432950131_2_alg».proof.Proof.LibKeepdimsColumn
import proofs.«152458_j67903432950131_2_alg».proof.Proof.RowNorm
import proofs.«152458_j67903432950131_2_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormA

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: each row of G + b divided by the larger of its norm and ε. -/
abbrev result (G : FVec Ideal S100000x64 .f32) (B : FVec Ideal S1x64 .f32) : S100000x64.Idx → Elt Ideal .f32 :=
  Cert.Whole.normResult G B

/-- A block with the bias row added to each of its rows. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

theorem biased_apply (x0 : Vec Ideal S5000x64 .f32) (x1 : Vec Ideal S1x64 .f32) (p : Fin 5000) (k : Fin 64) :
    biased x0 x1 (ix2 p k) = x0 (ix2 p k) + x1 (ix2 (0 : Fin 1) k) := by
  unfold biased
  rw [addf_apply, shapeCast_self, shapeCast_self]
  exact congrArg (x0 (ix2 p k) + ·) (broadcastTo_1b_ab_apply x1 broadcasts_S1x64_S5000x64 p k)

/-- The rows of a block normalised, as the region computes it: the squares summed along the lanes, kept as a column,
    its square root, the larger of that and ε, repeated along the lanes, and the quotient. -/
def normalised (y : FVec Ideal S5000x64 .f32) : FVec Ideal S5000x64 .f32 :=
  divf y (broadcastTo S5000x64
    (maximumf
      (sqrt (shapeCast S5000x1
        (multiReduction .add [1] S5000 (mulf y y) 0x00000000#32 reduces_S5000x64_S5000 (.inl rfl) rfl)
        shapeCasts_S5000_S5000x1))
      (broadcast S5000x1 (Scalar.ofBits (F := Ideal) .f32 0x2B8CBCCC#32)))
    broadcasts_S5000x1_S5000x64)

/-- The body's payload is the normalised biased block. -/
theorem pay_eq (x0 : Vec Ideal S5000x64 .f32) (x1 : Vec Ideal S1x64 .f32) :
    k2_pay1 x0 x1 = normalised (biased x0 x1) := rfl

/-- The normalised block at (p, q): row p of the block through the row function. -/
theorem normalised_apply (y : FVec Ideal S5000x64 .f32) (p : Fin 5000) (q : Fin 64) :
    normalised y (ix2 p q) = Cert.RowNorm.normOf (fun k => y (ix2 p k)) q := by
  unfold normalised Cert.RowNorm.normOf
  refine congrArg (Ideal.div (y (ix2 p q))) ?_
  refine (KeepdimsColumn.broadcastTo_a1_ab_apply _ broadcasts_S5000x1_S5000x64 p q).trans ?_
  refine congrArg (fun z => max (Ideal.sqrt z) (Ideal.ofBits .f32 0x2B8CBCCC#32)) ?_
  refine (KeepdimsColumn.shapeCast_a_a1_apply _ shapeCasts_S5000_S5000x1 p (0 : Fin 1)).trans ?_
  refine (Ideal.multiReduction_add_single (mulf y y) 0x00000000#32 reduces_S5000x64_S5000 (.inl rfl) rfl (ix1 p)).trans ?_
  refine Finset.sum_congr rfl fun k _ => ?_
  have hl : reduces_S5000x64_S5000.lift (ix1 p) k = ix2 p k := by
    funext a; apply Fin.ext
    match a with
    | ⟨0, _⟩ => rfl
    | ⟨1, _⟩ => rfl
  rw [hl]
  rfl

/-- The index maps over the grid: the input's block and the output's block move together down the rows, the bias
    row is one block. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every one of the twenty row blocks is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

set_option maxHeartbeats 1600000 in
/-- What point t writes back is block t of the whole result. -/
theorem flushed_eq (c : Dev nD) (t : Fin cfg2.N) :
    (dat2 V c).flushed 2 t
      = ((cfg2.win 2).blk t).view.read (Elt Ideal) (result (V c main_v31) (V c main_v1)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  rw [pay_eq]
  obtain ⟨e0, e1, e2, e3, e4, e5⟩ := idx_facts t
  funext j
  obtain ⟨p, q, rfl⟩ : ∃ (p : Fin 5000) (q : Fin 64), j = ix2 p q := ⟨j 0, j 1, eq_ix2 j⟩
  have hp : p.val < 5000 := p.isLt
  have hemb : ((cfg2.win 2).blk t).view.emb (ix2 p q)
      = ix2 (⟨win2_2.index t (0 : Fin 2) * 5000 + p.val, by omega⟩ : Fin 100000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  show normalised (biased (iblk2 V c 0 t) (iblk2 V c 1 t)) (ix2 p q)
    = result (V c main_v31) (V c main_v1) (((cfg2.win 2).blk t).view.emb (ix2 p q))
  rw [hemb]
  refine (normalised_apply (biased (iblk2 V c 0 t) (iblk2 V c 1 t)) p q).trans ?_
  refine Eq.trans ?_ (Cert.Whole.normResult_apply (V c main_v31) (V c main_v1) _ q).symm
  refine congrArg (fun f => Cert.RowNorm.normOf f q) (funext fun k => ?_)
  refine (biased_apply (iblk2 V c 0 t) (iblk2 V c 1 t) p k).trans ?_
  refine congrArg₂ (fun (a b : EReal) => a + b) ?_ ?_
  · show V c main_v31 (((cfg2.win 0).blk t).view.emb (ix2 p k)) = V c main_v31 (ix2 _ k)
    refine congrArg _ (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 64 + 1 * k.val = k.val; omega
  · show V c main_v1 (((cfg2.win 1).blk t).view.emb (ix2 (0 : Fin 1) k)) = V c main_v1 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v32).slice (win2_2.rect t)).set ↔ _
  rw [View.set_slice_whole, Rect.mem_set_unit]
  exact Iff.rfl

/-- The twenty blocks tile the output array: row r is in block r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array holds the normalised rows of G + b. -/
theorem final (c : Dev nD) : (dat2 V c).arrAt 2 cfg2.N = result (V c main_v31) (V c main_v1) :=
  (dat2 V c).arrAt_eq_of_cover 2 _ (fun t _ => flushed_eq V c t) cover

end Cert.KernelIdeal.NormA

end
-- ==== Proof.NormB.lean ====
/-
  Region 5: the last bias and the row normalisation, graph two.

  The region walks the 100000 rows of G in twenty blocks of 5000. At each block it adds the bias row to every row,
  and divides each row y by max (sqrt (Σ_k y_k²), ε). Each row of the result depends on that row of G only, so
  what point t writes back is rows 5000·t … 5000·t + 4999 of the whole normalised matrix, and the twenty blocks
  tile it.
-/
import proofs.«152458_j67903432950131_2_alg».proof.Proof.Gen.KernelIdeal.Frame
import proofs.«152458_j67903432950131_2_alg».proof.Proof.LibKeepdimsColumn
import proofs.«152458_j67903432950131_2_alg».proof.Proof.RowNorm
import proofs.«152458_j67903432950131_2_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormB

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: each row of G + b divided by the larger of its norm and ε. -/
abbrev result (G : FVec Ideal S100000x64 .f32) (B : FVec Ideal S1x64 .f32) : S100000x64.Idx → Elt Ideal .f32 :=
  Cert.Whole.normResult G B

/-- A block with the bias row added to each of its rows. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

theorem biased_apply (x0 : Vec Ideal S5000x64 .f32) (x1 : Vec Ideal S1x64 .f32) (p : Fin 5000) (k : Fin 64) :
    biased x0 x1 (ix2 p k) = x0 (ix2 p k) + x1 (ix2 (0 : Fin 1) k) := by
  unfold biased
  rw [addf_apply, shapeCast_self, shapeCast_self]
  exact congrArg (x0 (ix2 p k) + ·) (broadcastTo_1b_ab_apply x1 broadcasts_S1x64_S5000x64 p k)

/-- The rows of a block normalised, as the region computes it: the squares summed along the lanes, kept as a column,
    its square root, the larger of that and ε, repeated along the lanes, and the quotient. -/
def normalised (y : FVec Ideal S5000x64 .f32) : FVec Ideal S5000x64 .f32 :=
  divf y (broadcastTo S5000x64
    (maximumf
      (sqrt (shapeCast S5000x1
        (multiReduction .add [1] S5000 (mulf y y) 0x00000000#32 reduces_S5000x64_S5000 (.inl rfl) rfl)
        shapeCasts_S5000_S5000x1))
      (broadcast S5000x1 (Scalar.ofBits (F := Ideal) .f32 0x2B8CBCCC#32)))
    broadcasts_S5000x1_S5000x64)

/-- The body's payload is the normalised biased block. -/
theorem pay_eq (x0 : Vec Ideal S5000x64 .f32) (x1 : Vec Ideal S1x64 .f32) :
    k5_pay1 x0 x1 = normalised (biased x0 x1) := rfl

/-- The normalised block at (p, q): row p of the block through the row function. -/
theorem normalised_apply (y : FVec Ideal S5000x64 .f32) (p : Fin 5000) (q : Fin 64) :
    normalised y (ix2 p q) = Cert.RowNorm.normOf (fun k => y (ix2 p k)) q := by
  unfold normalised Cert.RowNorm.normOf
  refine congrArg (Ideal.div (y (ix2 p q))) ?_
  refine (KeepdimsColumn.broadcastTo_a1_ab_apply _ broadcasts_S5000x1_S5000x64 p q).trans ?_
  refine congrArg (fun z => max (Ideal.sqrt z) (Ideal.ofBits .f32 0x2B8CBCCC#32)) ?_
  refine (KeepdimsColumn.shapeCast_a_a1_apply _ shapeCasts_S5000_S5000x1 p (0 : Fin 1)).trans ?_
  refine (Ideal.multiReduction_add_single (mulf y y) 0x00000000#32 reduces_S5000x64_S5000 (.inl rfl) rfl (ix1 p)).trans ?_
  refine Finset.sum_congr rfl fun k _ => ?_
  have hl : reduces_S5000x64_S5000.lift (ix1 p) k = ix2 p k := by
    funext a; apply Fin.ext
    match a with
    | ⟨0, _⟩ => rfl
    | ⟨1, _⟩ => rfl
  rw [hl]
  rfl

/-- The index maps over the grid: the input's block and the output's block move together down the rows, the bias
    row is one block. -/
theorem idx_facts : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 19 :=
  (by decide +kernel : ∀ t : Fin grid5.N, _)

/-- Every one of the twenty row blocks is some point's. -/
theorem idx_onto : ∀ q0 : Fin 20, ∃ t : Fin cfg5.N, win5_2.index t = ![q0.val, 0] :=
  (by decide +kernel : ∀ q0 : Fin 20, ∃ t : Fin grid5.N, win5_2.index t = ![q0.val, 0])

set_option maxHeartbeats 1600000 in
/-- What point t writes back is block t of the whole result. -/
theorem flushed_eq (c : Dev nD) (t : Fin cfg5.N) :
    (dat5 V c).flushed 2 t
      = ((cfg5.win 2).blk t).view.read (Elt Ideal) (result (V c main_v62) (V c main_v1)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  rw [pay_eq]
  obtain ⟨e0, e1, e2, e3, e4, e5⟩ := idx_facts t
  funext j
  obtain ⟨p, q, rfl⟩ : ∃ (p : Fin 5000) (q : Fin 64), j = ix2 p q := ⟨j 0, j 1, eq_ix2 j⟩
  have hp : p.val < 5000 := p.isLt
  have hemb : ((cfg5.win 2).blk t).view.emb (ix2 p q)
      = ix2 (⟨win5_2.index t (0 : Fin 2) * 5000 + p.val, by omega⟩ : Fin 100000) q := by
    funext a; apply Fin.ext
    match a with
    | ⟨0, _⟩ => show win5_2.index t (0 : Fin 2) * 5000 + 1 * p.val = win5_2.index t (0 : Fin 2) * 5000 + p.val; omega
    | ⟨1, _⟩ => show win5_2.index t (1 : Fin 2) * 64 + 1 * q.val = q.val; omega
  show normalised (biased (iblk5 V c 0 t) (iblk5 V c 1 t)) (ix2 p q)
    = result (V c main_v62) (V c main_v1) (((cfg5.win 2).blk t).view.emb (ix2 p q))
  rw [hemb]
  refine (normalised_apply (biased (iblk5 V c 0 t) (iblk5 V c 1 t)) p q).trans ?_
  refine Eq.trans ?_ (Cert.Whole.normResult_apply (V c main_v62) (V c main_v1) _ q).symm
  refine congrArg (fun f => Cert.RowNorm.normOf f q) (funext fun k => ?_)
  refine (biased_apply (iblk5 V c 0 t) (iblk5 V c 1 t) p k).trans ?_
  refine congrArg₂ (fun (a b : EReal) => a + b) ?_ ?_
  · show V c main_v62 (((cfg5.win 0).blk t).view.emb (ix2 p k)) = V c main_v62 (ix2 _ k)
    refine congrArg _ (funext fun a => Fin.ext ?_)
    match a with
    | ⟨0, _⟩ => show win5_0.index t (0 : Fin 2) * 5000 + 1 * p.val = win5_2.index t (0 : Fin 2) * 5000 + p.val; omega
    | ⟨1, _⟩ => show win5_0.index t (1 : Fin 2) * 64 + 1 * k.val = k.val; omega
  · show V c main_v1 (((cfg5.win 1).blk t).view.emb (ix2 (0 : Fin 1) k)) = V c main_v1 (ix2 (0 : Fin 1) k)
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * k.val = k.val; omega

/-- An index of the output array is in point t's block iff each coordinate is in the block's range on its axis. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v63).slice (win5_2.rect t)).set ↔ _
  rw [View.set_slice_whole, Rect.mem_set_unit]
  exact Iff.rfl

/-- The twenty blocks tile the output array: row r is in block r / 5000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- After the region the output array holds the normalised rows of G + b. -/
theorem final (c : Dev nD) : (dat5 V c).arrAt 2 cfg5.N = result (V c main_v62) (V c main_v1) :=
  (dat5 V c).arrAt_eq_of_cover 2 _ (fun t _ => flushed_eq V c t) cover

end Cert.KernelIdeal.NormB

end
-- ==== Proof.KRead.lean ====
/-
  The kernel program's two result arrays as composed terms of the arguments.

  Between regions the program applies whole-array operations that form the sparse product A · M from the coordinate
  list (rows, cols, vals): a row gather of M (stored in the half-width float format and widened right after the
  gather — on the extended reals a change of format is the identity), a scaling by the edge weights, and a
  scatter-add into zeros. Reading the fold boundary by boundary: region one leaves X · W₁; the first stretch
  A · (X · W₁); region two selu (· + b₁) · W₂; the second stretch A · of that; region three the normalised rows
  of (· + b₂). The second graph's three regions and two stretches follow, on the other arguments.
-/
import proofs.«152458_j67903432950131_2_alg».proof.Proof.Carry
import proofs.«152458_j67903432950131_2_alg».proof.Proof.Layer1A
import proofs.«152458_j67903432950131_2_alg».proof.Proof.Layer1B
import proofs.«152458_j67903432950131_2_alg».proof.Proof.Layer2A
import proofs.«152458_j67903432950131_2_alg».proof.Proof.Layer2B
import proofs.«152458_j67903432950131_2_alg».proof.Proof.NormA
import proofs.«152458_j67903432950131_2_alg».proof.Proof.NormB
import proofs.«152458_j67903432950131_2_alg».proof.Proof.Whole
import proofs.«152458_j67903432950131_2_alg».proof.Proof.Stages
import Idealize.ShloMosaic.Lib.StableHlo.Run

set_option maxRecDepth 16384

noncomputable section

namespace Cert.KernelIdeal.KRead

open Cert.KernelIdeal Cert.KernelIdeal.Gen
open Idealize.ShloMosaic Idealize.ShloMosaic.TcCoe Idealize.SL.Sem Idealize.ShloMosaic.StableHlo

section AnyFloats

variable {F : FTy → Type} [FloatOps F]

/-- The sparse product as the kernel program's whole-array operations spell it: the dense matrix is held in the
    half-width format and widened after the gather. -/
def spmmK (rows cols : (⟨S1200000, .i32⟩ : BufTy).Contents (Elt F)) (vals : (⟨S1200000, .f32⟩ : BufTy).Contents (Elt F))
    (M : (⟨S100000x64, .bf16⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 rows)
    (mulf
      (extf .f32 (Host.gather gather_S100000x64_S1200000x1_S1200000x64_1_0_n_n_0_1_164 M
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 100000#32))) cols))) bitsLt_bf16_f32)
      (broadcastInDim S1200000x64 ![0, 1] bcast_S1200000x1_S1200000x64_0_1
        (broadcastInDim S1200000x1 ![0] bcast_S1200000_S1200000x1_0 vals)))

set_option maxHeartbeats 4000000 in
/-- Stretch one: the sparse product of the matrix the region before it left. -/
theorem stretch1 (V : Valuation τ sig (Elt F)) :
    after hostOps1 V (Proc.devRef .tc main_v16)
      = spmmK (V (Proc.devRef .tc main_arg2)) (V (Proc.devRef .tc main_arg3)) (V (Proc.devRef .tc main_arg4)) (V (Proc.devRef .tc main_v2)) := by
  after_results_simp
  rfl

set_option maxHeartbeats 4000000 in
/-- Stretch two: the sparse product of the matrix the region before it left. -/
theorem stretch2 (V : Valuation τ sig (Elt F)) :
    after hostOps2 V (Proc.devRef .tc main_v31)
      = spmmK (V (Proc.devRef .tc main_arg2)) (V (Proc.devRef .tc main_arg3)) (V (Proc.devRef .tc main_arg4)) (V (Proc.devRef .tc main_v17)) := by
  after_results_simp
  rfl

set_option maxHeartbeats 4000000 in
/-- Stretch three: the sparse product of the matrix the region before it left. -/
theorem stretch4 (V : Valuation τ sig (Elt F)) :
    after hostOps4 V (Proc.devRef .tc main_v47)
      = spmmK (V (Proc.devRef .tc main_arg5)) (V (Proc.devRef .tc main_arg6)) (V (Proc.devRef .tc main_arg7)) (V (Proc.devRef .tc main_v33)) := by
  after_results_simp
  rfl

set_option maxHeartbeats 4000000 in
/-- Stretch four: the sparse product of the matrix the region before it left. -/
theorem stretch5 (V : Valuation τ sig (Elt F)) :
    after hostOps5 V (Proc.devRef .tc main_v62)
      = spmmK (V (Proc.devRef .tc main_arg5)) (V (Proc.devRef .tc main_arg6)) (V (Proc.devRef .tc main_arg7)) (V (Proc.devRef .tc main_v48)) := by
  after_results_simp
  rfl

end AnyFloats

/-- On the extended reals the widening is the identity: the kernel program's sparse product is the plain one. -/
theorem spmmK_eq (rows cols : IVec S1200000 32) (vals : FVec Ideal S1200000 .f32) (M : FVec Ideal S100000x64 .bf16) :
    spmmK (F := Ideal) rows cols vals M = Cert.Stages.spmm (F := Ideal) rows cols vals M := rfl

/-! ## The stages' values as functions of the argument arrays (the bias given as a 1 × 64 row) -/

/-- A · (X · W₁). -/
def prop1 (X : FVec Ideal S100000x256 .f32) (rows cols : IVec S1200000 32) (vals : FVec Ideal S1200000 .f32)
    (W1 : FVec Ideal S256x64 .f32) : FVec Ideal S100000x64 .f32 :=
  Cert.Stages.spmm (F := Ideal) rows cols vals (Cert.Stages.layer1 (F := Ideal) X W1)

/-- selu (A · (X · W₁) + b₁) · W₂. -/
def layer2Of (X : FVec Ideal S100000x256 .f32) (rows cols : IVec S1200000 32) (vals : FVec Ideal S1200000 .f32)
    (W1 : FVec Ideal S256x64 .f32) (B1 : FVec Ideal S1x64 .f32) (W2 : FVec Ideal S64x64 .f32) : FVec Ideal S100000x64 .f32 :=
  Cert.Whole.fusedResult (prop1 X rows cols vals W1) B1 W2

/-- A · (selu (A · (X · W₁) + b₁) · W₂). -/
def prop2 (X : FVec Ideal S100000x256 .f32) (rows cols : IVec S1200000 32) (vals : FVec Ideal S1200000 .f32)
    (W1 : FVec Ideal S256x64 .f32) (B1 : FVec Ideal S1x64 .f32) (W2 : FVec Ideal S64x64 .f32) : FVec Ideal S100000x64 .f32 :=
  Cert.Stages.spmm (F := Ideal) rows cols vals (layer2Of X rows cols vals W1 B1 W2)

/-- The normalised rows of that plus b₂. -/
def outOf (X : FVec Ideal S100000x256 .f32) (rows cols : IVec S1200000 32) (vals : FVec Ideal S1200000 .f32)
    (W1 : FVec Ideal S256x64 .f32) (B1 : FVec Ideal S1x64 .f32) (W2 : FVec Ideal S64x64 .f32) (B2 : FVec Ideal S1x64 .f32) :
    FVec Ideal S100000x64 .f32 :=
  Cert.Whole.normResult (prop2 X rows cols vals W1 B1 W2) B2

variable (m : (ℓ : Loc nD τ sig) → Buf (Elt Ideal) ℓ) (ρ : Dev nD → PrngReg)

/-! ## Graph 1 -/

/-- After the first region: X · W₁. -/
theorem g1_layer1 (c : Dev nD) :
    W2 m ρ c (Proc.devRef .tc main_v2) = Cert.Stages.layer1 (F := Ideal) (m ((c : Thread nD τ).loc main_arg0)) (m ((c : Thread nD τ).loc main_arg8)) := by
  refine (W2_arr m ρ c 2).trans ((Layer1A.final (V1 m ρ) c).trans ?_)
  show Layer1A.product (W1 m ρ c (Proc.devRef .tc main_arg0)) (W1 m ρ c (Proc.devRef .tc main_arg8)) = _
  rw [Carry.W1_main_arg0 m ρ c, Carry.W1_main_arg8 m ρ c]

/-- After the first sparse product: A · (X · W₁). -/
theorem g1_prop1 (c : Dev nD) :
    W3 m ρ c (Proc.devRef .tc main_v16) = prop1 (m ((c : Thread nD τ).loc main_arg0)) (m ((c : Thread nD τ).loc main_arg2)) (m ((c : Thread nD τ).loc main_arg3)) (m ((c : Thread nD τ).loc main_arg4)) (m ((c : Thread nD τ).loc main_arg8)) := by
  refine (stretch1 (W2 m ρ c)).trans ?_
  rw [Carry.W2_main_arg2 m ρ c, Carry.W2_main_arg3 m ρ c, Carry.W2_main_arg4 m ρ c, g1_layer1 m ρ c]
  exact spmmK_eq _ _ _ _

/-- After the second region: selu (A · (X · W₁) + b₁) · W₂. -/
theorem g1_layer2 (c : Dev nD) :
    W4 m ρ c (Proc.devRef .tc main_v17) = layer2Of (m ((c : Thread nD τ).loc main_arg0)) (m ((c : Thread nD τ).loc main_arg2)) (m ((c : Thread nD τ).loc main_arg3)) (m ((c : Thread nD τ).loc main_arg4)) (m ((c : Thread nD τ).loc main_arg8)) (Carry.biasRow (m ((c : Thread nD τ).loc main_arg9))) (m ((c : Thread nD τ).loc main_arg10)) := by
  refine (W4_arr m ρ c 3).trans ((Layer2A.final (V3 m ρ) c).trans ?_)
  show Layer2A.result (W3 m ρ c (Proc.devRef .tc main_v16)) (W3 m ρ c (Proc.devRef .tc main_v0)) (W3 m ρ c (Proc.devRef .tc main_arg10)) = _
  rw [g1_prop1 m ρ c, Carry.W3_main_v0 m ρ c, Carry.W3_main_arg10 m ρ c]
  rfl

/-- After the second sparse product. -/
theorem g1_prop2 (c : Dev nD) :
    W5 m ρ c (Proc.devRef .tc main_v31) = prop2 (m ((c : Thread nD τ).loc main_arg0)) (m ((c : Thread nD τ).loc main_arg2)) (m ((c : Thread nD τ).loc main_arg3)) (m ((c : Thread nD τ).loc main_arg4)) (m ((c : Thread nD τ).loc main_arg8)) (Carry.biasRow (m ((c : Thread nD τ).loc main_arg9))) (m ((c : Thread nD τ).loc main_arg10)) := by
  refine (stretch2 (W4 m ρ c)).trans ?_
  rw [Carry.W4_main_arg2 m ρ c, Carry.W4_main_arg3 m ρ c, Carry.W4_main_arg4 m ρ c, g1_layer2 m ρ c]
  exact spmmK_eq _ _ _ _

/-- After the third region: the normalised embedding. -/
theorem g1_out (c : Dev nD) :
    W6 m ρ c (Proc.devRef .tc main_v32) = outOf (m ((c : Thread nD τ).loc main_arg0)) (m ((c : Thread nD τ).loc main_arg2)) (m ((c : Thread nD τ).loc main_arg3)) (m ((c : Thread nD τ).loc main_arg4)) (m ((c : Thread nD τ).loc main_arg8)) (Carry.biasRow (m ((c : Thread nD τ).loc main_arg9))) (m ((c : Thread nD τ).loc main_arg10)) (Carry.biasRow (m ((c : Thread nD τ).loc main_arg11))) := by
  refine (W6_arr m ρ c 2).trans ((NormA.final (V5 m ρ) c).trans ?_)
  show NormA.result (W5 m ρ c (Proc.devRef .tc main_v31)) (W5 m ρ c (Proc.devRef .tc main_v1)) = _
  rw [g1_prop2 m ρ c, Carry.W5_main_v1 m ρ c]
  rfl

/-! ## Graph 2 -/

/-- After the first region: X · W₁. -/
theorem g2_layer1 (c : Dev nD) :
    W7 m ρ c (Proc.devRef .tc main_v33) = Cert.Stages.layer1 (F := Ideal) (m ((c : Thread nD τ).loc main_arg1)) (m ((c : Thread nD τ).loc main_arg8)) := by
  refine (W7_arr m ρ c 2).trans ((Layer1B.final (V6 m ρ) c).trans ?_)
  show Layer1B.product (W6 m ρ c (Proc.devRef .tc main_arg1)) (W6 m ρ c (Proc.devRef .tc main_arg8)) = _
  rw [Carry.W6_main_arg1 m ρ c, Carry.W6_main_arg8 m ρ c]

/-- After the first sparse product: A · (X · W₁). -/
theorem g2_prop1 (c : Dev nD) :
    W8 m ρ c (Proc.devRef .tc main_v47) = prop1 (m ((c : Thread nD τ).loc main_arg1)) (m ((c : Thread nD τ).loc main_arg5)) (m ((c : Thread nD τ).loc main_arg6)) (m ((c : Thread nD τ).loc main_arg7)) (m ((c : Thread nD τ).loc main_arg8)) := by
  refine (stretch4 (W7 m ρ c)).trans ?_
  rw [Carry.W7_main_arg5 m ρ c, Carry.W7_main_arg6 m ρ c, Carry.W7_main_arg7 m ρ c, g2_layer1 m ρ c]
  exact spmmK_eq _ _ _ _

/-- After the second region: selu (A · (X · W₁) + b₁) · W₂. -/
theorem g2_layer2 (c : Dev nD) :
    W9 m ρ c (Proc.devRef .tc main_v48) = layer2Of (m ((c : Thread nD τ).loc main_arg1)) (m ((c : Thread nD τ).loc main_arg5)) (m ((c : Thread nD τ).loc main_arg6)) (m ((c : Thread nD τ).loc main_arg7)) (m ((c : Thread nD τ).loc main_arg8)) (Carry.biasRow (m ((c : Thread nD τ).loc main_arg9))) (m ((c : Thread nD τ).loc main_arg10)) := by
  refine (W9_arr m ρ c 3).trans ((Layer2B.final (V8 m ρ) c).trans ?_)
  show Layer2B.result (W8 m ρ c (Proc.devRef .tc main_v47)) (W8 m ρ c (Proc.devRef .tc main_v0)) (W8 m ρ c (Proc.devRef .tc main_arg10)) = _
  rw [g2_prop1 m ρ c, Carry.W8_main_v0 m ρ c, Carry.W8_main_arg10 m ρ c]
  rfl

/-- After the second sparse product. -/
theorem g2_prop2 (c : Dev nD) :
    W10 m ρ c (Proc.devRef .tc main_v62) = prop2 (m ((c : Thread nD τ).loc main_arg1)) (m ((c : Thread nD τ).loc main_arg5)) (m ((c : Thread nD τ).loc main_arg6)) (m ((c : Thread nD τ).loc main_arg7)) (m ((c : Thread nD τ).loc main_arg8)) (Carry.biasRow (m ((c : Thread nD τ).loc main_arg9))) (m ((c : Thread nD τ).loc main_arg10)) := by
  refine (stretch5 (W9 m ρ c)).trans ?_
  rw [Carry.W9_main_arg5 m ρ c, Carry.W9_main_arg6 m ρ c, Carry.W9_main_arg7 m ρ c, g2_layer2 m ρ c]
  exact spmmK_eq _ _ _ _

/-- After the third region: the normalised embedding. -/
theorem g2_out (c : Dev nD) :
    W11 m ρ c (Proc.devRef .tc main_v63) = outOf (m ((c : Thread nD τ).loc main_arg1)) (m ((c : Thread nD τ).loc main_arg5)) (m ((c : Thread nD τ).loc main_arg6)) (m ((c : Thread nD τ).loc main_arg7)) (m ((c : Thread nD τ).loc main_arg8)) (Carry.biasRow (m ((c : Thread nD τ).loc main_arg9))) (m ((c : Thread nD τ).loc main_arg10)) (Carry.biasRow (m ((c : Thread nD τ).loc main_arg11))) := by
  refine (W11_arr m ρ c 2).trans ((NormB.final (V10 m ρ) c).trans ?_)
  show NormB.result (W10 m ρ c (Proc.devRef .tc main_v62)) (W10 m ρ c (Proc.devRef .tc main_v1)) = _
  rw [g2_prop2 m ρ c, Carry.W10_main_v1 m ρ c]
  rfl

/-- The first result array at the end of the program. -/
theorem g1_out_end (c : Dev nD) :
    W11 m ρ c (Proc.devRef .tc main_v32) = outOf (m ((c : Thread nD τ).loc main_arg0)) (m ((c : Thread nD τ).loc main_arg2)) (m ((c : Thread nD τ).loc main_arg3)) (m ((c : Thread nD τ).loc main_arg4)) (m ((c : Thread nD τ).loc main_arg8)) (Carry.biasRow (m ((c : Thread nD τ).loc main_arg9))) (m ((c : Thread nD τ).loc main_arg10)) (Carry.biasRow (m ((c : Thread nD τ).loc main_arg11))) :=
  (Carry.W11_main_v32 m ρ c).trans (g1_out m ρ c)

end Cert.KernelIdeal.KRead

end
-- ==== Proof.StagesAt.lean ====
/-
  The entrywise and row-wise stages of the embedding, read at one entry.

  At the extended reals, at row r and feature q:
    · the bias stage is  G (r, q) + b q;
    · selu, as the plain program spells it, is the scalar function through expm1 of that entry;
    · the row normalisation is the row function of row r at q: the entry divided by the larger of the row's
      Euclidean norm and ε (the sum of squares starts from the zero word, which adds nothing).
-/
import proofs.«152458_j67903432950131_2_alg».proof.Proof.Stages
import proofs.«152458_j67903432950131_2_alg».proof.Proof.SeluPoint
import proofs.«152458_j67903432950131_2_alg».proof.Proof.RowNorm
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.StagesAt

open Idealize.ShloMosaic Idealize.ShloMosaic.ValueIdx Cert.ReferenceIdeal Cert.ReferenceIdeal.Gen Cert.Stages

/-- The bias stage at (r, q). -/
theorem addBias_apply (G : FVec Ideal S100000x64 .f32) (b : FVec Ideal S64 .f32) (r : Fin 100000) (q : Fin 64) :
    addBias (F := Ideal) G b (ix2 r q) = G (ix2 r q) + b (ix1 q) := by
  unfold addBias
  rw [addf_apply]
  refine congrArg (G (ix2 r q) + ·) ?_
  refine (broadcastInDim_apply _ bcast_S1x64_S100000x64_0_1 _ (ix2 r q) (ix2 (0 : Fin 1) q) (fun a => ?_)).trans ?_
  · match a with
    | ⟨0, _⟩ => rfl
    | ⟨1, _⟩ => rfl
  · refine broadcastInDim_apply _ bcast_S64_S1x64_1 _ (ix2 (0 : Fin 1) q) (ix1 q) (fun a => ?_)
    match a with
    | ⟨0, _⟩ => rfl

/-- selu at an entry is the scalar function of that entry. -/
theorem selu_apply (x : FVec Ideal S100000x64 .f32) (i : S100000x64.Idx) :
    selu (F := Ideal) x i = Cert.SeluPoint.viaExpm1 (x i) := rfl

/-- The sum of one row's squares, as the plain program's reduction computes it. -/
theorem rowSquares (Y : FVec Ideal S100000x64 .f32) (r : Fin 100000) :
    Host.reduceAdd (F := Ideal) (mulf Y Y) (constant S_ .f32 0x00000000#32) reducesTo_S100000x64_S100000_d1 h_S_ (ix1 r)
      = ∑ k : Fin 64, Y (ix2 r k) * Y (ix2 r k) := by
  have h : S100000x64.Reduces [1] S100000 := by decide
  rw [hostReduceAdd_apply]
  refine (Ideal.hostReduceAdd_single reducesTo_S100000x64_S100000_d1 h _ _ (ix1 r)).trans ?_
  rw [constant_apply, Ideal.ofBits_zero_f32, zero_add]
  refine Finset.sum_congr rfl fun k _ => ?_
  have hl : h.lift (ix1 r) k = ix2 r k := by
    funext a; apply Fin.ext
    match a with
    | ⟨0, _⟩ => rfl
    | ⟨1, _⟩ => rfl
  rw [hl]
  rfl

/-- The row normalisation at (r, q) is the row function of row r. -/
theorem normRows_apply (Y : FVec Ideal S100000x64 .f32) (r : Fin 100000) (q : Fin 64) :
    normRows (F := Ideal) Y (ix2 r q) = Cert.RowNorm.normOf (fun k => Y (ix2 r k)) q := by
  unfold normRows Cert.RowNorm.normOf
  rw [hostDivf_apply]
  refine congrArg (Ideal.div (Y (ix2 r q))) ?_
  refine (broadcastInDim_apply _ bcast_S100000x1_S100000x64_0_1 _ (ix2 r q) (ix2 r (0 : Fin 1)) (fun a => ?_)).trans ?_
  · match a with
    | ⟨0, _⟩ => rfl
    | ⟨1, _⟩ => rfl
  rw [maximumf_apply, broadcastInDim_scalar_apply, constant_apply]
  simp only [Host.sqrt, Ideal.hostUnary_sqrt_def]
  refine congrArg (fun z => max (Ideal.sqrt z) (Ideal.ofBits .f32 0x2B8CBCCC#32)) ?_
  refine (broadcastInDim_apply _ bcast_S100000_S100000x1_0 _ (ix2 r (0 : Fin 1)) (ix1 r) (fun a => ?_)).trans ?_
  · match a with
    | ⟨0, _⟩ => rfl
  exact rowSquares Y r

end Cert.StagesAt

end
-- ==== Proof.Bridge.lean ====
/-
  The kernel program's composed term is the plain program's.

  Stage by stage the two differ only in how the bias and the entrywise functions are spelt: the fused regions add a
  1 × 64 bias row, take selu entry by entry and normalise row by row, where the plain program broadcasts the bias
  vector over the matrix and applies whole-array selu and normalisation. A bias vector viewed as a 1 × 64 row has
  entry q at (0, q), so entry by entry the two spellings agree; the sparse products and dense layers in between are
  the same terms.
-/
import proofs.«152458_j67903432950131_2_alg».proof.Proof.KRead
import proofs.«152458_j67903432950131_2_alg».proof.Proof.StagesAt
import Idealize.ShloMosaic.Lib.ValueIdx
import Idealize.ShloMosaic.Lib.ValueLayout

set_option maxRecDepth 16384

noncomputable section

namespace Cert.Bridge

open Idealize.ShloMosaic Idealize.ShloMosaic.ValueIdx Cert.ReferenceIdeal
open Cert.KernelIdeal.Carry (biasRow)

/-- The bias vector viewed as a 1 × 64 row has entry q at (0, q). -/
theorem biasRow_apply (b : FVec Ideal S64 .f32) (q : Fin 64) :
    biasRow (F := Ideal) b (ix2 (0 : Fin 1) q) = b (ix1 q) := by
  unfold biasRow
  exact shapeCast_a_1a_apply b _ (0 : Fin 1) q

/-- Entrywise selu of G plus the bias row is the plain program's selu of G plus the broadcast bias. -/
theorem activated_eq (G : FVec Ideal S100000x64 .f32) (b : FVec Ideal S64 .f32) :
    Cert.Whole.activated G (biasRow (F := Ideal) b) = Cert.Stages.selu (F := Ideal) (Cert.Stages.addBias (F := Ideal) G b) := by
  funext i
  obtain ⟨r, q, rfl⟩ : ∃ (r : Fin 100000) (q : Fin 64), i = ix2 r q := ⟨i 0, i 1, eq_ix2 i⟩
  rw [Cert.StagesAt.selu_apply, Cert.StagesAt.addBias_apply]
  rw [Cert.Whole.activated_apply, biasRow_apply]

/-- Row normalisation of G plus the bias row is the plain program's normalisation of G plus the broadcast bias. -/
theorem normResult_eq (G : FVec Ideal S100000x64 .f32) (b : FVec Ideal S64 .f32) :
    Cert.Whole.normResult G (biasRow (F := Ideal) b) = Cert.Stages.normRows (F := Ideal) (Cert.Stages.addBias (F := Ideal) G b) := by
  funext i
  obtain ⟨r, q, rfl⟩ : ∃ (r : Fin 100000) (q : Fin 64), i = ix2 r q := ⟨i 0, i 1, eq_ix2 i⟩
  rw [Cert.StagesAt.normRows_apply]
  rw [Cert.Whole.normResult_apply]
  refine congrArg (fun f => Cert.RowNorm.normOf f q) (funext fun k => ?_)
  rw [Cert.StagesAt.addBias_apply, biasRow_apply]

/-- The kernel program's composed term of one graph is the plain program's embedding. -/
theorem outOf_eq (X : FVec Ideal S100000x256 .f32) (rows cols : IVec S1200000 32) (vals : FVec Ideal S1200000 .f32)
    (W1 : FVec Ideal S256x64 .f32) (b1 : FVec Ideal S64 .f32) (W2 : FVec Ideal S64x64 .f32) (b2 : FVec Ideal S64 .f32) :
    Cert.KernelIdeal.KRead.outOf X rows cols vals W1 (biasRow (F := Ideal) b1) W2 (biasRow (F := Ideal) b2)
      = Cert.Stages.embed (F := Ideal) X rows cols vals W1 b1 W2 b2 := by
  unfold Cert.KernelIdeal.KRead.outOf Cert.KernelIdeal.KRead.prop2 Cert.KernelIdeal.KRead.layer2Of
    Cert.KernelIdeal.KRead.prop1 Cert.Whole.fusedResult Cert.Stages.embed Cert.Stages.hidden
  rw [normResult_eq, activated_eq]

end Cert.Bridge

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.RefRun.lean ====
/-
  The plain program's run, read back as the stage functions.

  The plain program is a straight line of whole-array operations: for each of the two graphs, X · W₁, one sparse
  propagation (a row gather, a scaling by the edge weights, a scatter-add into zeros), the bias, selu (a function of
  the program's own, which calls elu, which calls two selection helpers — all of them straight lines, so the calls
  unfold into the line over each call's own buffers), Z · W₂, a second propagation, the bias, and the division of each
  row by the larger of its Euclidean norm and ε. Running the line from any memory ends with every buffer at the fold
  of the operations over the launch contents; read at the two result buffers that fold is the composed stage function
  `Cert.Stages.embed` of the argument arrays, and at each argument buffer it is what was there.

  The fold is read back in four stretches (each graph up to its hidden layer, and from there to its result), each over
  contents that are not further specified, and the stretches are then composed.
-/
import proofs.«152458_j67903432950131_2_alg».proof.Proof.Stages
import Idealize.ShloMosaic.Lib.StableHlo.Run
import proofs.«152458_j67903432950131_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a straight line -/

/-- The program's whole-array operations in order, the calls of selu replaced by the callee's operations over that call's buffers. -/
abbrev ops : List (HloOp τ sig (Elt F)) :=
  [ StableHlo.binary main_arg0 main_arg8 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c (constantI S_ 32 0#32),
    StableHlo.unary main_c main_v1 (broadcastInDim S1200000 ![] bcast_S_S1200000 : (⟨S_, .i32⟩ : BufTy).Contents (Elt F) → (⟨S1200000, .i32⟩ : BufTy).Contents (Elt F)),
    StableHlo.binary main_arg3 main_v1 main_v2 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v3 (broadcastInDim S1200000 ![] bcast_S_S1200000 : (⟨S_, .i32⟩ : BufTy).Contents (Elt F) → (⟨S1200000, .i32⟩ : BufTy).Contents (Elt F)),
    StableHlo.binary main_arg3 main_v3 main_v4 (addi : (⟨S1200000, .i32⟩ : BufTy).Contents (Elt F) → (⟨S1200000, .i32⟩ : BufTy).Contents (Elt F) → (⟨S1200000, .i32⟩ : BufTy).Contents (Elt F)),
    StableHlo.ternary main_v2 main_v4 main_arg3 main_v5 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v5 main_v6 (broadcastInDim S1200000x1 ![0] bcast_S1200000_S1200000x1_0 : (⟨S1200000, .i32⟩ : BufTy).Contents (Elt F) → (⟨S1200000x1, .i32⟩ : BufTy).Contents (Elt F)),
    StableHlo.binary main_v0 main_v6 main_v7 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg4 main_v8 (broadcastInDim S1200000x1 ![0] bcast_S1200000_S1200000x1_0 : (⟨S1200000, .f32⟩ : BufTy).Contents (Elt F) → (⟨S1200000x1, .f32⟩ : BufTy).Contents (Elt F)),
    StableHlo.unary main_v8 main_v9 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v7 main_v9 main_v10 (mulf : (⟨S1200000x64, .f32⟩ : BufTy).Contents (Elt F) → (⟨S1200000x64, .f32⟩ : BufTy).Contents (Elt F) → (⟨S1200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg2 main_v12 (broadcastInDim S1200000x1 ![0] bcast_S1200000_S1200000x1_0 : (⟨S1200000, .i32⟩ : BufTy).Contents (Elt F) → (⟨S1200000x1, .i32⟩ : BufTy).Contents (Elt F)),
    StableHlo.ternary main_v11 main_v12 main_v10 main_v13 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg9 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x64 ![] bcast_S_S100000x64),
    TRef.binary (.of main_v16 : TRef sig ⟨S100000x64, .f32⟩) main_call0.call0.v0 main_call0.call0.v1 (cmpf .ogt),
    TRef.nullary main_call0.call0.cst_0 (constant S_ .f32 0x00000000#32),
    TRef.unary main_call0.call0.cst_0 main_call0.call0.v2 (broadcastInDim S100000x64 ![] bcast_S_S100000x64),
    TRef.binary (.of main_v16 : TRef sig ⟨S100000x64, .f32⟩) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x64 ![] bcast_S_S100000x64),
    TRef.ternary main_call0.call0.v3 main_call0.call0.call0.v1 (.of main_v16 : TRef sig ⟨S100000x64, .f32⟩) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x64 ![] bcast_S_S100000x64),
    TRef.binary main_call0.call0.v7 main_call0.call0.v5 main_call0.call0.v8 mulf,
    TRef.ternary main_call0.call0.v1 (.of main_v16 : TRef sig ⟨S100000x64, .f32⟩) main_call0.call0.v8 main_call0.call0.call1.v0 select,
    TRef.nullary main_call0.cst_0 (constant S_ .f32 0x3F867D5F#32),
    TRef.unary main_call0.cst_0 main_call0.v1 (broadcastInDim S100000x64 ![] bcast_S_S100000x64),
    TRef.binary main_call0.v1 main_call0.call0.call1.v0 main_call0.v2 mulf,
    StableHlo.binary main_v17 main_arg10 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_1 (constantI S_ 32 0#32),
    StableHlo.unary main_c_1 main_v19 (broadcastInDim S1200000 ![] bcast_S_S1200000 : (⟨S_, .i32⟩ : BufTy).Contents (Elt F) → (⟨S1200000, .i32⟩ : BufTy).Contents (Elt F)),
    StableHlo.binary main_arg3 main_v19 main_v20 (cmpi .slt : (⟨S1200000, .i32⟩ : BufTy).Contents (Elt F) → (⟨S1200000, .i32⟩ : BufTy).Contents (Elt F) → (⟨S1200000, .i1⟩ : BufTy).Contents (Elt F)),
    StableHlo.nullary main_c_2 (constantI S_ 32 100000#32),
    StableHlo.unary main_c_2 main_v21 (broadcastInDim S1200000 ![] bcast_S_S1200000 : (⟨S_, .i32⟩ : BufTy).Contents (Elt F) → (⟨S1200000, .i32⟩ : BufTy).Contents (Elt F)),
    StableHlo.binary main_arg3 main_v21 main_v22 (addi : (⟨S1200000, .i32⟩ : BufTy).Contents (Elt F) → (⟨S1200000, .i32⟩ : BufTy).Contents (Elt F) → (⟨S1200000, .i32⟩ : BufTy).Contents (Elt F)),
    StableHlo.ternary main_v20 main_v22 main_arg3 main_v23 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v23 main_v24 (broadcastInDim S1200000x1 ![0] bcast_S1200000_S1200000x1_0 : (⟨S1200000, .i32⟩ : BufTy).Contents (Elt F) → (⟨S1200000x1, .i32⟩ : BufTy).Contents (Elt F)),
    StableHlo.binary main_v18 main_v24 main_v25 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg4 main_v26 (broadcastInDim S1200000x1 ![0] bcast_S1200000_S1200000x1_0 : (⟨S1200000, .f32⟩ : BufTy).Contents (Elt F) → (⟨S1200000x1, .f32⟩ : BufTy).Contents (Elt F)),
    StableHlo.unary main_v26 main_v27 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v25 main_v27 main_v28 (mulf : (⟨S1200000x64, .f32⟩ : BufTy).Contents (Elt F) → (⟨S1200000x64, .f32⟩ : BufTy).Contents (Elt F) → (⟨S1200000x64, .f32⟩ : BufTy).Contents (Elt F)),
    StableHlo.nullary main_cst_3 (constant S_ .f32 0x00000000#32),
    StableHlo.unary main_cst_3 main_v29 (broadcastInDim S100000x64 ![] bcast_S_S100000x64 : (⟨S_, .f32⟩ : BufTy).Contents (Elt F) → (⟨S100000x64, .f32⟩ : BufTy).Contents (Elt F)),
    StableHlo.unary main_arg2 main_v30 (broadcastInDim S1200000x1 ![0] bcast_S1200000_S1200000x1_0 : (⟨S1200000, .i32⟩ : BufTy).Contents (Elt F) → (⟨S1200000x1, .i32⟩ : BufTy).Contents (Elt F)),
    StableHlo.ternary main_v29 main_v30 main_v28 main_v31 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg11 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v33 main_v34 (addf : (⟨S100000x64, .f32⟩ : BufTy).Contents (Elt F) → (⟨S100000x64, .f32⟩ : BufTy).Contents (Elt F) → (⟨S100000x64, .f32⟩ : BufTy).Contents (Elt F)),
    StableHlo.binary main_v34 main_v34 main_v35 (mulf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x00000000#32),
    StableHlo.binary main_v35 main_cst_4 main_v36 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v36 main_v37 (broadcastInDim S100000x1 ![0] bcast_S100000_S100000x1_0 : (⟨S100000, .f32⟩ : BufTy).Contents (Elt F) → (⟨S100000x1, .f32⟩ : BufTy).Contents (Elt F)),
    StableHlo.unary main_v37 main_v38 (Host.sqrt : (⟨S100000x1, .f32⟩ : BufTy).Contents (Elt F) → (⟨S100000x1, .f32⟩ : BufTy).Contents (Elt F)),
    StableHlo.nullary main_cst_5 (constant S_ .f32 0x2B8CBCCC#32),
    StableHlo.unary main_cst_5 main_v39 (broadcastInDim S100000x1 ![] bcast_S_S100000x1 : (⟨S_, .f32⟩ : BufTy).Contents (Elt F) → (⟨S100000x1, .f32⟩ : BufTy).Contents (Elt F)),
    StableHlo.binary main_v38 main_v39 main_v40 (maximumf : (⟨S100000x1, .f32⟩ : BufTy).Contents (Elt F) → (⟨S100000x1, .f32⟩ : BufTy).Contents (Elt F) → (⟨S100000x1, .f32⟩ : BufTy).Contents (Elt F)),
    StableHlo.unary main_v40 main_v41 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v41 main_v42 (Host.divf : (⟨S100000x64, .f32⟩ : BufTy).Contents (Elt F) → (⟨S100000x64, .f32⟩ : BufTy).Contents (Elt F) → (⟨S100000x64, .f32⟩ : BufTy).Contents (Elt F)),
    StableHlo.binary main_arg1 main_arg8 main_v43 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c_6 (constantI S_ 32 0#32),
    StableHlo.unary main_c_6 main_v44 (broadcastInDim S1200000 ![] bcast_S_S1200000 : (⟨S_, .i32⟩ : BufTy).Contents (Elt F) → (⟨S1200000, .i32⟩ : BufTy).Contents (Elt F)),
    StableHlo.binary main_arg6 main_v44 main_v45 (cmpi .slt : (⟨S1200000, .i32⟩ : BufTy).Contents (Elt F) → (⟨S1200000, .i32⟩ : BufTy).Contents (Elt F) → (⟨S1200000, .i1⟩ : BufTy).Contents (Elt F)),
    StableHlo.nullary main_c_7 (constantI S_ 32 100000#32),
    StableHlo.unary main_c_7 main_v46 (broadcastInDim S1200000 ![] bcast_S_S1200000 : (⟨S_, .i32⟩ : BufTy).Contents (Elt F) → (⟨S1200000, .i32⟩ : BufTy).Contents (Elt F)),
    StableHlo.binary main_arg6 main_v46 main_v47 (addi : (⟨S1200000, .i32⟩ : BufTy).Contents (Elt F) → (⟨S1200000, .i32⟩ : BufTy).Contents (Elt F) → (⟨S1200000, .i32⟩ : BufTy).Contents (Elt F)),
    StableHlo.ternary main_v45 main_v47 main_arg6 main_v48 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v48 main_v49 (broadcastInDim S1200000x1 ![0] bcast_S1200000_S1200000x1_0 : (⟨S1200000, .i32⟩ : BufTy).Contents (Elt F) → (⟨S1200000x1, .i32⟩ : BufTy).Contents (Elt F)),
    StableHlo.binary main_v43 main_v49 main_v50 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg7 main_v51 (broadcastInDim S1200000x1 ![0] bcast_S1200000_S1200000x1_0 : (⟨S1200000, .f32⟩ : BufTy).Contents (Elt F) → (⟨S1200000x1, .f32⟩ : BufTy).Contents (Elt F)),
    StableHlo.unary main_v51 main_v52 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v50 main_v52 main_v53 (mulf : (⟨S1200000x64, .f32⟩ : BufTy).Contents (Elt F) → (⟨S1200000x64, .f32⟩ : BufTy).Contents (Elt F) → (⟨S1200000x64, .f32⟩ : BufTy).Contents (Elt F)),
    StableHlo.nullary main_cst_8 (constant S_ .f32 0x00000000#32),
    StableHlo.unary main_cst_8 main_v54 (broadcastInDim S100000x64 ![] bcast_S_S100000x64 : (⟨S_, .f32⟩ : BufTy).Contents (Elt F) → (⟨S100000x64, .f32⟩ : BufTy).Contents (Elt F)),
    StableHlo.unary main_arg5 main_v55 (broadcastInDim S1200000x1 ![0] bcast_S1200000_S1200000x1_0 : (⟨S1200000, .i32⟩ : BufTy).Contents (Elt F) → (⟨S1200000x1, .i32⟩ : BufTy).Contents (Elt F)),
    StableHlo.ternary main_v54 main_v55 main_v53 main_v56 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg9 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v58 main_v59 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S100000x64 ![] bcast_S_S100000x64),
    TRef.binary (.of main_v59 : TRef sig ⟨S100000x64, .f32⟩) main_call1.call0.v0 main_call1.call0.v1 (cmpf .ogt),
    TRef.nullary main_call1.call0.cst_0 (constant S_ .f32 0x00000000#32),
    TRef.unary main_call1.call0.cst_0 main_call1.call0.v2 (broadcastInDim S100000x64 ![] bcast_S_S100000x64),
    TRef.binary (.of main_v59 : TRef sig ⟨S100000x64, .f32⟩) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S100000x64 ![] bcast_S_S100000x64),
    TRef.ternary main_call1.call0.v3 main_call1.call0.call0.v1 (.of main_v59 : TRef sig ⟨S100000x64, .f32⟩) main_call1.call0.call0.v2 select,
    TRef.unary main_call1.call0.call0.v2 main_call1.call0.v5 Host.expm1,
    TRef.unary main_call1.cst main_call1.call0.v6 id,
    TRef.unary main_call1.call0.v6 main_call1.call0.v7 (broadcastInDim S100000x64 ![] bcast_S_S100000x64),
    TRef.binary main_call1.call0.v7 main_call1.call0.v5 main_call1.call0.v8 mulf,
    TRef.ternary main_call1.call0.v1 (.of main_v59 : TRef sig ⟨S100000x64, .f32⟩) main_call1.call0.v8 main_call1.call0.call1.v0 select,
    TRef.nullary main_call1.cst_0 (constant S_ .f32 0x3F867D5F#32),
    TRef.unary main_call1.cst_0 main_call1.v1 (broadcastInDim S100000x64 ![] bcast_S_S100000x64),
    TRef.binary main_call1.v1 main_call1.call0.call1.v0 main_call1.v2 mulf,
    StableHlo.binary main_v60 main_arg10 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_9 (constantI S_ 32 0#32),
    StableHlo.unary main_c_9 main_v62 (broadcastInDim S1200000 ![] bcast_S_S1200000 : (⟨S_, .i32⟩ : BufTy).Contents (Elt F) → (⟨S1200000, .i32⟩ : BufTy).Contents (Elt F)),
    StableHlo.binary main_arg6 main_v62 main_v63 (cmpi .slt : (⟨S1200000, .i32⟩ : BufTy).Contents (Elt F) → (⟨S1200000, .i32⟩ : BufTy).Contents (Elt F) → (⟨S1200000, .i1⟩ : BufTy).Contents (Elt F)),
    StableHlo.nullary main_c_10 (constantI S_ 32 100000#32),
    StableHlo.unary main_c_10 main_v64 (broadcastInDim S1200000 ![] bcast_S_S1200000 : (⟨S_, .i32⟩ : BufTy).Contents (Elt F) → (⟨S1200000, .i32⟩ : BufTy).Contents (Elt F)),
    StableHlo.binary main_arg6 main_v64 main_v65 (addi : (⟨S1200000, .i32⟩ : BufTy).Contents (Elt F) → (⟨S1200000, .i32⟩ : BufTy).Contents (Elt F) → (⟨S1200000, .i32⟩ : BufTy).Contents (Elt F)),
    StableHlo.ternary main_v63 main_v65 main_arg6 main_v66 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v66 main_v67 (broadcastInDim S1200000x1 ![0] bcast_S1200000_S1200000x1_0 : (⟨S1200000, .i32⟩ : BufTy).Contents (Elt F) → (⟨S1200000x1, .i32⟩ : BufTy).Contents (Elt F)),
    StableHlo.binary main_v61 main_v67 main_v68 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg7 main_v69 (broadcastInDim S1200000x1 ![0] bcast_S1200000_S1200000x1_0 : (⟨S1200000, .f32⟩ : BufTy).Contents (Elt F) → (⟨S1200000x1, .f32⟩ : BufTy).Contents (Elt F)),
    StableHlo.unary main_v69 main_v70 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v68 main_v70 main_v71 (mulf : (⟨S1200000x64, .f32⟩ : BufTy).Contents (Elt F) → (⟨S1200000x64, .f32⟩ : BufTy).Contents (Elt F) → (⟨S1200000x64, .f32⟩ : BufTy).Contents (Elt F)),
    StableHlo.nullary main_cst_11 (constant S_ .f32 0x00000000#32),
    StableHlo.unary main_cst_11 main_v72 (broadcastInDim S100000x64 ![] bcast_S_S100000x64 : (⟨S_, .f32⟩ : BufTy).Contents (Elt F) → (⟨S100000x64, .f32⟩ : BufTy).Contents (Elt F)),
    StableHlo.unary main_arg5 main_v73 (broadcastInDim S1200000x1 ![0] bcast_S1200000_S1200000x1_0 : (⟨S1200000, .i32⟩ : BufTy).Contents (Elt F) → (⟨S1200000x1, .i32⟩ : BufTy).Contents (Elt F)),
    StableHlo.ternary main_v72 main_v73 main_v71 main_v74 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg11 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),
    StableHlo.binary main_v77 main_v77 main_v78 (mulf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v78 main_cst_12 main_v79 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v79 main_v80 (broadcastInDim S100000x1 ![0] bcast_S100000_S100000x1_0 : (⟨S100000, .f32⟩ : BufTy).Contents (Elt F) → (⟨S100000x1, .f32⟩ : BufTy).Contents (Elt F)),
    StableHlo.unary main_v80 main_v81 (Host.sqrt : (⟨S100000x1, .f32⟩ : BufTy).Contents (Elt F) → (⟨S100000x1, .f32⟩ : BufTy).Contents (Elt F)),
    StableHlo.nullary main_cst_13 (constant S_ .f32 0x2B8CBCCC#32),
    StableHlo.unary main_cst_13 main_v82 (broadcastInDim S100000x1 ![] bcast_S_S100000x1 : (⟨S_, .f32⟩ : BufTy).Contents (Elt F) → (⟨S100000x1, .f32⟩ : BufTy).Contents (Elt F)),
    StableHlo.binary main_v81 main_v82 main_v83 (maximumf : (⟨S100000x1, .f32⟩ : BufTy).Contents (Elt F) → (⟨S100000x1, .f32⟩ : BufTy).Contents (Elt F) → (⟨S100000x1, .f32⟩ : BufTy).Contents (Elt F)),
    StableHlo.unary main_v83 main_v84 (broadcastInDim S100000x64 ![0, 1] bcast_S100000x1_S100000x64_0_1 : (⟨S100000x1, .f32⟩ : BufTy).Contents (Elt F) → (⟨S100000x64, .f32⟩ : BufTy).Contents (Elt F)),
    StableHlo.binary main_v77 main_v84 main_v85 (Host.divf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The program is that straight line: the functions unfolded at their calls and sequencing reassociated. -/
theorem main_eq (c : Dev nD) : main (F := F) c = seq ops := by
  simp only [main, main_part0, main_part1, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., ternary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-! ## The line in four stretches

Each graph's operations fall into two stretches: up to the hidden layer, and from it to the normalised result. -/

/-- First graph, through the hidden layer: X · W₁, the propagation A · (X · W₁), the bias b₁, selu. -/
abbrev opsA : List (HloOp τ sig (Elt F)) :=
  [ StableHlo.binary main_arg0 main_arg8 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c (constantI S_ 32 0#32),
    StableHlo.unary main_c main_v1 (broadcastInDim S1200000 ![] bcast_S_S1200000 : (⟨S_, .i32⟩ : BufTy).Contents (Elt F) → (⟨S1200000, .i32⟩ : BufTy).Contents (Elt F)),
    StableHlo.binary main_arg3 main_v1 main_v2 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v3 (broadcastInDim S1200000 ![] bcast_S_S1200000 : (⟨S_, .i32⟩ : BufTy).Contents (Elt F) → (⟨S1200000, .i32⟩ : BufTy).Contents (Elt F)),
    StableHlo.binary main_arg3 main_v3 main_v4 (addi : (⟨S1200000, .i32⟩ : BufTy).Contents (Elt F) → (⟨S1200000, .i32⟩ : BufTy).Contents (Elt F) → (⟨S1200000, .i32⟩ : BufTy).Contents (Elt F)),
    StableHlo.ternary main_v2 main_v4 main_arg3 main_v5 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v5 main_v6 (broadcastInDim S1200000x1 ![0] bcast_S1200000_S1200000x1_0 : (⟨S1200000, .i32⟩ : BufTy).Contents (Elt F) → (⟨S1200000x1, .i32⟩ : BufTy).Contents (Elt F)),
    StableHlo.binary main_v0 main_v6 main_v7 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg4 main_v8 (broadcastInDim S1200000x1 ![0] bcast_S1200000_S1200000x1_0 : (⟨S1200000, .f32⟩ : BufTy).Contents (Elt F) → (⟨S1200000x1, .f32⟩ : BufTy).Contents (Elt F)),
    StableHlo.unary main_v8 main_v9 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v7 main_v9 main_v10 (mulf : (⟨S1200000x64, .f32⟩ : BufTy).Contents (Elt F) → (⟨S1200000x64, .f32⟩ : BufTy).Contents (Elt F) → (⟨S1200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg2 main_v12 (broadcastInDim S1200000x1 ![0] bcast_S1200000_S1200000x1_0 : (⟨S1200000, .i32⟩ : BufTy).Contents (Elt F) → (⟨S1200000x1, .i32⟩ : BufTy).Contents (Elt F)),
    StableHlo.ternary main_v11 main_v12 main_v10 main_v13 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg9 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x64 ![] bcast_S_S100000x64),
    TRef.binary (.of main_v16 : TRef sig ⟨S100000x64, .f32⟩) main_call0.call0.v0 main_call0.call0.v1 (cmpf .ogt),
    TRef.nullary main_call0.call0.cst_0 (constant S_ .f32 0x00000000#32),
    TRef.unary main_call0.call0.cst_0 main_call0.call0.v2 (broadcastInDim S100000x64 ![] bcast_S_S100000x64),
    TRef.binary (.of main_v16 : TRef sig ⟨S100000x64, .f32⟩) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x64 ![] bcast_S_S100000x64),
    TRef.ternary main_call0.call0.v3 main_call0.call0.call0.v1 (.of main_v16 : TRef sig ⟨S100000x64, .f32⟩) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x64 ![] bcast_S_S100000x64),
    TRef.binary main_call0.call0.v7 main_call0.call0.v5 main_call0.call0.v8 mulf,
    TRef.ternary main_call0.call0.v1 (.of main_v16 : TRef sig ⟨S100000x64, .f32⟩) main_call0.call0.v8 main_call0.call0.call1.v0 select,
    TRef.nullary main_call0.cst_0 (constant S_ .f32 0x3F867D5F#32),
    TRef.unary main_call0.cst_0 main_call0.v1 (broadcastInDim S100000x64 ![] bcast_S_S100000x64),
    TRef.binary main_call0.v1 main_call0.call0.call1.v0 main_call0.v2 mulf ]

/-- First graph, from the hidden layer to the result: Z · W₂, the propagation, the bias b₂, the row normalisation. -/
abbrev opsB : List (HloOp τ sig (Elt F)) :=
  [ StableHlo.binary main_v17 main_arg10 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_1 (constantI S_ 32 0#32),
    StableHlo.unary main_c_1 main_v19 (broadcastInDim S1200000 ![] bcast_S_S1200000 : (⟨S_, .i32⟩ : BufTy).Contents (Elt F) → (⟨S1200000, .i32⟩ : BufTy).Contents (Elt F)),
    StableHlo.binary main_arg3 main_v19 main_v20 (cmpi .slt : (⟨S1200000, .i32⟩ : BufTy).Contents (Elt F) → (⟨S1200000, .i32⟩ : BufTy).Contents (Elt F) → (⟨S1200000, .i1⟩ : BufTy).Contents (Elt F)),
    StableHlo.nullary main_c_2 (constantI S_ 32 100000#32),
    StableHlo.unary main_c_2 main_v21 (broadcastInDim S1200000 ![] bcast_S_S1200000 : (⟨S_, .i32⟩ : BufTy).Contents (Elt F) → (⟨S1200000, .i32⟩ : BufTy).Contents (Elt F)),
    StableHlo.binary main_arg3 main_v21 main_v22 (addi : (⟨S1200000, .i32⟩ : BufTy).Contents (Elt F) → (⟨S1200000, .i32⟩ : BufTy).Contents (Elt F) → (⟨S1200000, .i32⟩ : BufTy).Contents (Elt F)),
    StableHlo.ternary main_v20 main_v22 main_arg3 main_v23 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v23 main_v24 (broadcastInDim S1200000x1 ![0] bcast_S1200000_S1200000x1_0 : (⟨S1200000, .i32⟩ : BufTy).Contents (Elt F) → (⟨S1200000x1, .i32⟩ : BufTy).Contents (Elt F)),
    StableHlo.binary main_v18 main_v24 main_v25 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg4 main_v26 (broadcastInDim S1200000x1 ![0] bcast_S1200000_S1200000x1_0 : (⟨S1200000, .f32⟩ : BufTy).Contents (Elt F) → (⟨S1200000x1, .f32⟩ : BufTy).Contents (Elt F)),
    StableHlo.unary main_v26 main_v27 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v25 main_v27 main_v28 (mulf : (⟨S1200000x64, .f32⟩ : BufTy).Contents (Elt F) → (⟨S1200000x64, .f32⟩ : BufTy).Contents (Elt F) → (⟨S1200000x64, .f32⟩ : BufTy).Contents (Elt F)),
    StableHlo.nullary main_cst_3 (constant S_ .f32 0x00000000#32),
    StableHlo.unary main_cst_3 main_v29 (broadcastInDim S100000x64 ![] bcast_S_S100000x64 : (⟨S_, .f32⟩ : BufTy).Contents (Elt F) → (⟨S100000x64, .f32⟩ : BufTy).Contents (Elt F)),
    StableHlo.unary main_arg2 main_v30 (broadcastInDim S1200000x1 ![0] bcast_S1200000_S1200000x1_0 : (⟨S1200000, .i32⟩ : BufTy).Contents (Elt F) → (⟨S1200000x1, .i32⟩ : BufTy).Contents (Elt F)),
    StableHlo.ternary main_v29 main_v30 main_v28 main_v31 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg11 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v33 main_v34 (addf : (⟨S100000x64, .f32⟩ : BufTy).Contents (Elt F) → (⟨S100000x64, .f32⟩ : BufTy).Contents (Elt F) → (⟨S100000x64, .f32⟩ : BufTy).Contents (Elt F)),
    StableHlo.binary main_v34 main_v34 main_v35 (mulf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x00000000#32),
    StableHlo.binary main_v35 main_cst_4 main_v36 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v36 main_v37 (broadcastInDim S100000x1 ![0] bcast_S100000_S100000x1_0 : (⟨S100000, .f32⟩ : BufTy).Contents (Elt F) → (⟨S100000x1, .f32⟩ : BufTy).Contents (Elt F)),
    StableHlo.unary main_v37 main_v38 (Host.sqrt : (⟨S100000x1, .f32⟩ : BufTy).Contents (Elt F) → (⟨S100000x1, .f32⟩ : BufTy).Contents (Elt F)),
    StableHlo.nullary main_cst_5 (constant S_ .f32 0x2B8CBCCC#32),
    StableHlo.unary main_cst_5 main_v39 (broadcastInDim S100000x1 ![] bcast_S_S100000x1 : (⟨S_, .f32⟩ : BufTy).Contents (Elt F) → (⟨S100000x1, .f32⟩ : BufTy).Contents (Elt F)),
    StableHlo.binary main_v38 main_v39 main_v40 (maximumf : (⟨S100000x1, .f32⟩ : BufTy).Contents (Elt F) → (⟨S100000x1, .f32⟩ : BufTy).Contents (Elt F) → (⟨S100000x1, .f32⟩ : BufTy).Contents (Elt F)),
    StableHlo.unary main_v40 main_v41 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v41 main_v42 (Host.divf : (⟨S100000x64, .f32⟩ : BufTy).Contents (Elt F) → (⟨S100000x64, .f32⟩ : BufTy).Contents (Elt F) → (⟨S100000x64, .f32⟩ : BufTy).Contents (Elt F)) ]

/-- Second graph, through the hidden layer. -/
abbrev opsC : List (HloOp τ sig (Elt F)) :=
  [ StableHlo.binary main_arg1 main_arg8 main_v43 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c_6 (constantI S_ 32 0#32),
    StableHlo.unary main_c_6 main_v44 (broadcastInDim S1200000 ![] bcast_S_S1200000 : (⟨S_, .i32⟩ : BufTy).Contents (Elt F) → (⟨S1200000, .i32⟩ : BufTy).Contents (Elt F)),
    StableHlo.binary main_arg6 main_v44 main_v45 (cmpi .slt : (⟨S1200000, .i32⟩ : BufTy).Contents (Elt F) → (⟨S1200000, .i32⟩ : BufTy).Contents (Elt F) → (⟨S1200000, .i1⟩ : BufTy).Contents (Elt F)),
    StableHlo.nullary main_c_7 (constantI S_ 32 100000#32),
    StableHlo.unary main_c_7 main_v46 (broadcastInDim S1200000 ![] bcast_S_S1200000 : (⟨S_, .i32⟩ : BufTy).Contents (Elt F) → (⟨S1200000, .i32⟩ : BufTy).Contents (Elt F)),
    StableHlo.binary main_arg6 main_v46 main_v47 (addi : (⟨S1200000, .i32⟩ : BufTy).Contents (Elt F) → (⟨S1200000, .i32⟩ : BufTy).Contents (Elt F) → (⟨S1200000, .i32⟩ : BufTy).Contents (Elt F)),
    StableHlo.ternary main_v45 main_v47 main_arg6 main_v48 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v48 main_v49 (broadcastInDim S1200000x1 ![0] bcast_S1200000_S1200000x1_0 : (⟨S1200000, .i32⟩ : BufTy).Contents (Elt F) → (⟨S1200000x1, .i32⟩ : BufTy).Contents (Elt F)),
    StableHlo.binary main_v43 main_v49 main_v50 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg7 main_v51 (broadcastInDim S1200000x1 ![0] bcast_S1200000_S1200000x1_0 : (⟨S1200000, .f32⟩ : BufTy).Contents (Elt F) → (⟨S1200000x1, .f32⟩ : BufTy).Contents (Elt F)),
    StableHlo.unary main_v51 main_v52 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v50 main_v52 main_v53 (mulf : (⟨S1200000x64, .f32⟩ : BufTy).Contents (Elt F) → (⟨S1200000x64, .f32⟩ : BufTy).Contents (Elt F) → (⟨S1200000x64, .f32⟩ : BufTy).Contents (Elt F)),
    StableHlo.nullary main_cst_8 (constant S_ .f32 0x00000000#32),
    StableHlo.unary main_cst_8 main_v54 (broadcastInDim S100000x64 ![] bcast_S_S100000x64 : (⟨S_, .f32⟩ : BufTy).Contents (Elt F) → (⟨S100000x64, .f32⟩ : BufTy).Contents (Elt F)),
    StableHlo.unary main_arg5 main_v55 (broadcastInDim S1200000x1 ![0] bcast_S1200000_S1200000x1_0 : (⟨S1200000, .i32⟩ : BufTy).Contents (Elt F) → (⟨S1200000x1, .i32⟩ : BufTy).Contents (Elt F)),
    StableHlo.ternary main_v54 main_v55 main_v53 main_v56 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg9 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v58 main_v59 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S100000x64 ![] bcast_S_S100000x64),
    TRef.binary (.of main_v59 : TRef sig ⟨S100000x64, .f32⟩) main_call1.call0.v0 main_call1.call0.v1 (cmpf .ogt),
    TRef.nullary main_call1.call0.cst_0 (constant S_ .f32 0x00000000#32),
    TRef.unary main_call1.call0.cst_0 main_call1.call0.v2 (broadcastInDim S100000x64 ![] bcast_S_S100000x64),
    TRef.binary (.of main_v59 : TRef sig ⟨S100000x64, .f32⟩) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S100000x64 ![] bcast_S_S100000x64),
    TRef.ternary main_call1.call0.v3 main_call1.call0.call0.v1 (.of main_v59 : TRef sig ⟨S100000x64, .f32⟩) main_call1.call0.call0.v2 select,
    TRef.unary main_call1.call0.call0.v2 main_call1.call0.v5 Host.expm1,
    TRef.unary main_call1.cst main_call1.call0.v6 id,
    TRef.unary main_call1.call0.v6 main_call1.call0.v7 (broadcastInDim S100000x64 ![] bcast_S_S100000x64),
    TRef.binary main_call1.call0.v7 main_call1.call0.v5 main_call1.call0.v8 mulf,
    TRef.ternary main_call1.call0.v1 (.of main_v59 : TRef sig ⟨S100000x64, .f32⟩) main_call1.call0.v8 main_call1.call0.call1.v0 select,
    TRef.nullary main_call1.cst_0 (constant S_ .f32 0x3F867D5F#32),
    TRef.unary main_call1.cst_0 main_call1.v1 (broadcastInDim S100000x64 ![] bcast_S_S100000x64),
    TRef.binary main_call1.v1 main_call1.call0.call1.v0 main_call1.v2 mulf ]

/-- Second graph, from the hidden layer to the result. -/
abbrev opsD : List (HloOp τ sig (Elt F)) :=
  [ StableHlo.binary main_v60 main_arg10 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_9 (constantI S_ 32 0#32),
    StableHlo.unary main_c_9 main_v62 (broadcastInDim S1200000 ![] bcast_S_S1200000 : (⟨S_, .i32⟩ : BufTy).Contents (Elt F) → (⟨S1200000, .i32⟩ : BufTy).Contents (Elt F)),
    StableHlo.binary main_arg6 main_v62 main_v63 (cmpi .slt : (⟨S1200000, .i32⟩ : BufTy).Contents (Elt F) → (⟨S1200000, .i32⟩ : BufTy).Contents (Elt F) → (⟨S1200000, .i1⟩ : BufTy).Contents (Elt F)),
    StableHlo.nullary main_c_10 (constantI S_ 32 100000#32),
    StableHlo.unary main_c_10 main_v64 (broadcastInDim S1200000 ![] bcast_S_S1200000 : (⟨S_, .i32⟩ : BufTy).Contents (Elt F) → (⟨S1200000, .i32⟩ : BufTy).Contents (Elt F)),
    StableHlo.binary main_arg6 main_v64 main_v65 (addi : (⟨S1200000, .i32⟩ : BufTy).Contents (Elt F) → (⟨S1200000, .i32⟩ : BufTy).Contents (Elt F) → (⟨S1200000, .i32⟩ : BufTy).Contents (Elt F)),
    StableHlo.ternary main_v63 main_v65 main_arg6 main_v66 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v66 main_v67 (broadcastInDim S1200000x1 ![0] bcast_S1200000_S1200000x1_0 : (⟨S1200000, .i32⟩ : BufTy).Contents (Elt F) → (⟨S1200000x1, .i32⟩ : BufTy).Contents (Elt F)),
    StableHlo.binary main_v61 main_v67 main_v68 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_arg7 main_v69 (broadcastInDim S1200000x1 ![0] bcast_S1200000_S1200000x1_0 : (⟨S1200000, .f32⟩ : BufTy).Contents (Elt F) → (⟨S1200000x1, .f32⟩ : BufTy).Contents (Elt F)),
    StableHlo.unary main_v69 main_v70 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v68 main_v70 main_v71 (mulf : (⟨S1200000x64, .f32⟩ : BufTy).Contents (Elt F) → (⟨S1200000x64, .f32⟩ : BufTy).Contents (Elt F) → (⟨S1200000x64, .f32⟩ : BufTy).Contents (Elt F)),
    StableHlo.nullary main_cst_11 (constant S_ .f32 0x00000000#32),
    StableHlo.unary main_cst_11 main_v72 (broadcastInDim S100000x64 ![] bcast_S_S100000x64 : (⟨S_, .f32⟩ : BufTy).Contents (Elt F) → (⟨S100000x64, .f32⟩ : BufTy).Contents (Elt F)),
    StableHlo.unary main_arg5 main_v73 (broadcastInDim S1200000x1 ![0] bcast_S1200000_S1200000x1_0 : (⟨S1200000, .i32⟩ : BufTy).Contents (Elt F) → (⟨S1200000x1, .i32⟩ : BufTy).Contents (Elt F)),
    StableHlo.ternary main_v72 main_v73 main_v71 main_v74 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg11 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),
    StableHlo.binary main_v77 main_v77 main_v78 (mulf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v78 main_cst_12 main_v79 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v79 main_v80 (broadcastInDim S100000x1 ![0] bcast_S100000_S100000x1_0 : (⟨S100000, .f32⟩ : BufTy).Contents (Elt F) → (⟨S100000x1, .f32⟩ : BufTy).Contents (Elt F)),
    StableHlo.unary main_v80 main_v81 (Host.sqrt : (⟨S100000x1, .f32⟩ : BufTy).Contents (Elt F) → (⟨S100000x1, .f32⟩ : BufTy).Contents (Elt F)),
    StableHlo.nullary main_cst_13 (constant S_ .f32 0x2B8CBCCC#32),
    StableHlo.unary main_cst_13 main_v82 (broadcastInDim S100000x1 ![] bcast_S_S100000x1 : (⟨S_, .f32⟩ : BufTy).Contents (Elt F) → (⟨S100000x1, .f32⟩ : BufTy).Contents (Elt F)),
    StableHlo.binary main_v81 main_v82 main_v83 (maximumf : (⟨S100000x1, .f32⟩ : BufTy).Contents (Elt F) → (⟨S100000x1, .f32⟩ : BufTy).Contents (Elt F) → (⟨S100000x1, .f32⟩ : BufTy).Contents (Elt F)),
    StableHlo.unary main_v83 main_v84 (broadcastInDim S100000x64 ![0, 1] bcast_S100000x1_S100000x64_0_1 : (⟨S100000x1, .f32⟩ : BufTy).Contents (Elt F) → (⟨S100000x64, .f32⟩ : BufTy).Contents (Elt F)),
    StableHlo.binary main_v77 main_v84 main_v85 (Host.divf : (⟨S100000x64, .f32⟩ : BufTy).Contents (Elt F) → (⟨S100000x64, .f32⟩ : BufTy).Contents (Elt F) → (⟨S100000x64, .f32⟩ : BufTy).Contents (Elt F)) ]

/-- The whole line is the four stretches in a row. -/
theorem ops_split : (ops : List (HloOp τ sig (Elt F))) = opsA ++ (opsB ++ (opsC ++ opsD)) := rfl

/-! ## What each stretch leaves in its result buffer

Over contents `V` that are not further specified, each stretch's last buffer holds the corresponding stage function of
what `V` holds at the stretch's inputs: the fold over the stretch unrolls, every operation either writes the buffer read
or leaves it, and the typed references of the inlined selu carry literal buffers, so their transports are the identity.
The gather, the scatter-add, the row sum and the elementwise transcendental operations stay folded: the equation never
looks inside them. -/

attribute [local irreducible] Host.gather Host.scatterAdd Host.reduceAdd Host.expm1 Host.sqrt Host.divf in
set_option maxRecDepth 8192 in
set_option maxHeartbeats 1000000 in
theorem outA (V : Valuation τ sig (Elt F)) :
    after opsA V (main_v17 : DevRef τ sig)
      = Cert.Stages.hidden (V (main_arg0 : DevRef τ sig)) (V (main_arg2 : DevRef τ sig)) (V (main_arg3 : DevRef τ sig)) (V (main_arg4 : DevRef τ sig)) (V (main_arg8 : DevRef τ sig)) (V (main_arg9 : DevRef τ sig)) := by
  simp only [after_cons, after_nil]
  rfl

attribute [local irreducible] Host.gather Host.scatterAdd Host.reduceAdd Host.expm1 Host.sqrt Host.divf in
set_option maxRecDepth 8192 in
set_option maxHeartbeats 1000000 in
theorem outB (V : Valuation τ sig (Elt F)) :
    after opsB V (main_v42 : DevRef τ sig)
      = Cert.Stages.normRows (Cert.Stages.addBias (Cert.Stages.spmm (V (main_arg2 : DevRef τ sig)) (V (main_arg3 : DevRef τ sig)) (V (main_arg4 : DevRef τ sig)) (Cert.Stages.layer2 (V (main_v17 : DevRef τ sig)) (V (main_arg10 : DevRef τ sig)))) (V (main_arg11 : DevRef τ sig))) := by
  simp only [after_cons, after_nil]
  rfl

attribute [local irreducible] Host.gather Host.scatterAdd Host.reduceAdd Host.expm1 Host.sqrt Host.divf in
set_option maxRecDepth 8192 in
set_option maxHeartbeats 1000000 in
theorem outC (V : Valuation τ sig (Elt F)) :
    after opsC V (main_v60 : DevRef τ sig)
      = Cert.Stages.hidden (V (main_arg1 : DevRef τ sig)) (V (main_arg5 : DevRef τ sig)) (V (main_arg6 : DevRef τ sig)) (V (main_arg7 : DevRef τ sig)) (V (main_arg8 : DevRef τ sig)) (V (main_arg9 : DevRef τ sig)) := by
  simp only [after_cons, after_nil]
  rfl

attribute [local irreducible] Host.gather Host.scatterAdd Host.reduceAdd Host.expm1 Host.sqrt Host.divf in
set_option maxRecDepth 8192 in
set_option maxHeartbeats 1000000 in
theorem outD (V : Valuation τ sig (Elt F)) :
    after opsD V (main_v85 : DevRef τ sig)
      = Cert.Stages.normRows (Cert.Stages.addBias (Cert.Stages.spmm (V (main_arg5 : DevRef τ sig)) (V (main_arg6 : DevRef τ sig)) (V (main_arg7 : DevRef τ sig)) (Cert.Stages.layer2 (V (main_v60 : DevRef τ sig)) (V (main_arg10 : DevRef τ sig)))) (V (main_arg11 : DevRef τ sig))) := by
  simp only [after_cons, after_nil]
  rfl

/-! ## What each stretch leaves alone

No stretch writes an argument buffer, and the second graph's stretches do not write the first graph's result. -/

theorem frameA_arg0 (V : Valuation τ sig (Elt F)) : after opsA V (main_arg0 : DevRef τ sig) = (V (main_arg0 : DevRef τ sig)) := by
  after_results_simp
theorem frameA_arg1 (V : Valuation τ sig (Elt F)) : after opsA V (main_arg1 : DevRef τ sig) = (V (main_arg1 : DevRef τ sig)) := by
  after_results_simp
theorem frameA_arg2 (V : Valuation τ sig (Elt F)) : after opsA V (main_arg2 : DevRef τ sig) = (V (main_arg2 : DevRef τ sig)) := by
  after_results_simp
theorem frameA_arg3 (V : Valuation τ sig (Elt F)) : after opsA V (main_arg3 : DevRef τ sig) = (V (main_arg3 : DevRef τ sig)) := by
  after_results_simp
theorem frameA_arg4 (V : Valuation τ sig (Elt F)) : after opsA V (main_arg4 : DevRef τ sig) = (V (main_arg4 : DevRef τ sig)) := by
  after_results_simp
theorem frameA_arg5 (V : Valuation τ sig (Elt F)) : after opsA V (main_arg5 : DevRef τ sig) = (V (main_arg5 : DevRef τ sig)) := by
  after_results_simp
theorem frameA_arg6 (V : Valuation τ sig (Elt F)) : after opsA V (main_arg6 : DevRef τ sig) = (V (main_arg6 : DevRef τ sig)) := by
  after_results_simp
theorem frameA_arg7 (V : Valuation τ sig (Elt F)) : after opsA V (main_arg7 : DevRef τ sig) = (V (main_arg7 : DevRef τ sig)) := by
  after_results_simp
theorem frameA_arg8 (V : Valuation τ sig (Elt F)) : after opsA V (main_arg8 : DevRef τ sig) = (V (main_arg8 : DevRef τ sig)) := by
  after_results_simp
theorem frameA_arg9 (V : Valuation τ sig (Elt F)) : after opsA V (main_arg9 : DevRef τ sig) = (V (main_arg9 : DevRef τ sig)) := by
  after_results_simp
theorem frameA_arg10 (V : Valuation τ sig (Elt F)) : after opsA V (main_arg10 : DevRef τ sig) = (V (main_arg10 : DevRef τ sig)) := by
  after_results_simp
theorem frameA_arg11 (V : Valuation τ sig (Elt F)) : after opsA V (main_arg11 : DevRef τ sig) = (V (main_arg11 : DevRef τ sig)) := by
  after_results_simp

theorem frameB_arg0 (V : Valuation τ sig (Elt F)) : after opsB V (main_arg0 : DevRef τ sig) = (V (main_arg0 : DevRef τ sig)) := by
  after_results_simp
theorem frameB_arg1 (V : Valuation τ sig (Elt F)) : after opsB V (main_arg1 : DevRef τ sig) = (V (main_arg1 : DevRef τ sig)) := by
  after_results_simp
theorem frameB_arg2 (V : Valuation τ sig (Elt F)) : after opsB V (main_arg2 : DevRef τ sig) = (V (main_arg2 : DevRef τ sig)) := by
  after_results_simp
theorem frameB_arg3 (V : Valuation τ sig (Elt F)) : after opsB V (main_arg3 : DevRef τ sig) = (V (main_arg3 : DevRef τ sig)) := by
  after_results_simp
theorem frameB_arg4 (V : Valuation τ sig (Elt F)) : after opsB V (main_arg4 : DevRef τ sig) = (V (main_arg4 : DevRef τ sig)) := by
  after_results_simp
theorem frameB_arg5 (V : Valuation τ sig (Elt F)) : after opsB V (main_arg5 : DevRef τ sig) = (V (main_arg5 : DevRef τ sig)) := by
  after_results_simp
theorem frameB_arg6 (V : Valuation τ sig (Elt F)) : after opsB V (main_arg6 : DevRef τ sig) = (V (main_arg6 : DevRef τ sig)) := by
  after_results_simp
theorem frameB_arg7 (V : Valuation τ sig (Elt F)) : after opsB V (main_arg7 : DevRef τ sig) = (V (main_arg7 : DevRef τ sig)) := by
  after_results_simp
theorem frameB_arg8 (V : Valuation τ sig (Elt F)) : after opsB V (main_arg8 : DevRef τ sig) = (V (main_arg8 : DevRef τ sig)) := by
  after_results_simp
theorem frameB_arg9 (V : Valuation τ sig (Elt F)) : after opsB V (main_arg9 : DevRef τ sig) = (V (main_arg9 : DevRef τ sig)) := by
  after_results_simp
theorem frameB_arg10 (V : Valuation τ sig (Elt F)) : after opsB V (main_arg10 : DevRef τ sig) = (V (main_arg10 : DevRef τ sig)) := by
  after_results_simp
theorem frameB_arg11 (V : Valuation τ sig (Elt F)) : after opsB V (main_arg11 : DevRef τ sig) = (V (main_arg11 : DevRef τ sig)) := by
  after_results_simp

theorem frameC_arg0 (V : Valuation τ sig (Elt F)) : after opsC V (main_arg0 : DevRef τ sig) = (V (main_arg0 : DevRef τ sig)) := by
  after_results_simp
theorem frameC_arg1 (V : Valuation τ sig (Elt F)) : after opsC V (main_arg1 : DevRef τ sig) = (V (main_arg1 : DevRef τ sig)) := by
  after_results_simp
theorem frameC_arg2 (V : Valuation τ sig (Elt F)) : after opsC V (main_arg2 : DevRef τ sig) = (V (main_arg2 : DevRef τ sig)) := by
  after_results_simp
theorem frameC_arg3 (V : Valuation τ sig (Elt F)) : after opsC V (main_arg3 : DevRef τ sig) = (V (main_arg3 : DevRef τ sig)) := by
  after_results_simp
theorem frameC_arg4 (V : Valuation τ sig (Elt F)) : after opsC V (main_arg4 : DevRef τ sig) = (V (main_arg4 : DevRef τ sig)) := by
  after_results_simp
theorem frameC_arg5 (V : Valuation τ sig (Elt F)) : after opsC V (main_arg5 : DevRef τ sig) = (V (main_arg5 : DevRef τ sig)) := by
  after_results_simp
theorem frameC_arg6 (V : Valuation τ sig (Elt F)) : after opsC V (main_arg6 : DevRef τ sig) = (V (main_arg6 : DevRef τ sig)) := by
  after_results_simp
theorem frameC_arg7 (V : Valuation τ sig (Elt F)) : after opsC V (main_arg7 : DevRef τ sig) = (V (main_arg7 : DevRef τ sig)) := by
  after_results_simp
theorem frameC_arg8 (V : Valuation τ sig (Elt F)) : after opsC V (main_arg8 : DevRef τ sig) = (V (main_arg8 : DevRef τ sig)) := by
  after_results_simp
theorem frameC_arg9 (V : Valuation τ sig (Elt F)) : after opsC V (main_arg9 : DevRef τ sig) = (V (main_arg9 : DevRef τ sig)) := by
  after_results_simp
theorem frameC_arg10 (V : Valuation τ sig (Elt F)) : after opsC V (main_arg10 : DevRef τ sig) = (V (main_arg10 : DevRef τ sig)) := by
  after_results_simp
theorem frameC_arg11 (V : Valuation τ sig (Elt F)) : after opsC V (main_arg11 : DevRef τ sig) = (V (main_arg11 : DevRef τ sig)) := by
  after_results_simp

theorem frameD_arg0 (V : Valuation τ sig (Elt F)) : after opsD V (main_arg0 : DevRef τ sig) = (V (main_arg0 : DevRef τ sig)) := by
  after_results_simp
theorem frameD_arg1 (V : Valuation τ sig (Elt F)) : after opsD V (main_arg1 : DevRef τ sig) = (V (main_arg1 : DevRef τ sig)) := by
  after_results_simp
theorem frameD_arg2 (V : Valuation τ sig (Elt F)) : after opsD V (main_arg2 : DevRef τ sig) = (V (main_arg2 : DevRef τ sig)) := by
  after_results_simp
theorem frameD_arg3 (V : Valuation τ sig (Elt F)) : after opsD V (main_arg3 : DevRef τ sig) = (V (main_arg3 : DevRef τ sig)) := by
  after_results_simp
theorem frameD_arg4 (V : Valuation τ sig (Elt F)) : after opsD V (main_arg4 : DevRef τ sig) = (V (main_arg4 : DevRef τ sig)) := by
  after_results_simp
theorem frameD_arg5 (V : Valuation τ sig (Elt F)) : after opsD V (main_arg5 : DevRef τ sig) = (V (main_arg5 : DevRef τ sig)) := by
  after_results_simp
theorem frameD_arg6 (V : Valuation τ sig (Elt F)) : after opsD V (main_arg6 : DevRef τ sig) = (V (main_arg6 : DevRef τ sig)) := by
  after_results_simp
theorem frameD_arg7 (V : Valuation τ sig (Elt F)) : after opsD V (main_arg7 : DevRef τ sig) = (V (main_arg7 : DevRef τ sig)) := by
  after_results_simp
theorem frameD_arg8 (V : Valuation τ sig (Elt F)) : after opsD V (main_arg8 : DevRef τ sig) = (V (main_arg8 : DevRef τ sig)) := by
  after_results_simp
theorem frameD_arg9 (V : Valuation τ sig (Elt F)) : after opsD V (main_arg9 : DevRef τ sig) = (V (main_arg9 : DevRef τ sig)) := by
  after_results_simp
theorem frameD_arg10 (V : Valuation τ sig (Elt F)) : after opsD V (main_arg10 : DevRef τ sig) = (V (main_arg10 : DevRef τ sig)) := by
  after_results_simp
theorem frameD_arg11 (V : Valuation τ sig (Elt F)) : after opsD V (main_arg11 : DevRef τ sig) = (V (main_arg11 : DevRef τ sig)) := by
  after_results_simp

theorem frameC_v42 (V : Valuation τ sig (Elt F)) : after opsC V (main_v42 : DevRef τ sig) = (V (main_v42 : DevRef τ sig)) := by
  after_results_simp
theorem frameD_v42 (V : Valuation τ sig (Elt F)) : after opsD V (main_v42 : DevRef τ sig) = (V (main_v42 : DevRef τ sig)) := by
  after_results_simp

/-! ## The whole line read back -/

/-- The first graph's result buffer holds the embedding of the first graph's arguments. -/
theorem v42_eq (V : Valuation τ sig (Elt F)) :
    after ops V (main_v42 : DevRef τ sig)
      = Cert.Stages.embed (V (main_arg0 : DevRef τ sig)) (V (main_arg2 : DevRef τ sig)) (V (main_arg3 : DevRef τ sig)) (V (main_arg4 : DevRef τ sig)) (V (main_arg8 : DevRef τ sig)) (V (main_arg9 : DevRef τ sig)) (V (main_arg10 : DevRef τ sig)) (V (main_arg11 : DevRef τ sig)) := by
  rw [ops_split, AfterAppend.after_append, AfterAppend.after_append, AfterAppend.after_append,
    frameD_v42, frameC_v42, outB, outA, frameA_arg2, frameA_arg3, frameA_arg4, frameA_arg10, frameA_arg11]
  rfl

/-- The second graph's result buffer holds the embedding of the second graph's arguments. -/
theorem v85_eq (V : Valuation τ sig (Elt F)) :
    after ops V (main_v85 : DevRef τ sig)
      = Cert.Stages.embed (V (main_arg1 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_split, AfterAppend.after_append, AfterAppend.after_append, AfterAppend.after_append,
    outD, outC, frameC_arg5, frameC_arg6, frameC_arg7, frameC_arg10, frameC_arg11,
    frameB_arg1, frameB_arg5, frameB_arg6, frameB_arg7, frameB_arg8, frameB_arg9, frameB_arg10, frameB_arg11,
    frameA_arg1, frameA_arg5, frameA_arg6, frameA_arg7, frameA_arg8, frameA_arg9, frameA_arg10, frameA_arg11]
  rfl

theorem arg0_eq (V : Valuation τ sig (Elt F)) : after ops V (main_arg0 : DevRef τ sig) = (V (main_arg0 : DevRef τ sig)) := by
  rw [ops_split, AfterAppend.after_append, AfterAppend.after_append, AfterAppend.after_append,
    frameD_arg0, frameC_arg0, frameB_arg0, frameA_arg0]
theorem arg1_eq (V : Valuation τ sig (Elt F)) : after ops V (main_arg1 : DevRef τ sig) = (V (main_arg1 : DevRef τ sig)) := by
  rw [ops_split, AfterAppend.after_append, AfterAppend.after_append, AfterAppend.after_append,
    frameD_arg1, frameC_arg1, frameB_arg1, frameA_arg1]
theorem arg2_eq (V : Valuation τ sig (Elt F)) : after ops V (main_arg2 : DevRef τ sig) = (V (main_arg2 : DevRef τ sig)) := by
  rw [ops_split, AfterAppend.after_append, AfterAppend.after_append, AfterAppend.after_append,
    frameD_arg2, frameC_arg2, frameB_arg2, frameA_arg2]
theorem arg3_eq (V : Valuation τ sig (Elt F)) : after ops V (main_arg3 : DevRef τ sig) = (V (main_arg3 : DevRef τ sig)) := by
  rw [ops_split, AfterAppend.after_append, AfterAppend.after_append, AfterAppend.after_append,
    frameD_arg3, frameC_arg3, frameB_arg3, frameA_arg3]
theorem arg4_eq (V : Valuation τ sig (Elt F)) : after ops V (main_arg4 : DevRef τ sig) = (V (main_arg4 : DevRef τ sig)) := by
  rw [ops_split, AfterAppend.after_append, AfterAppend.after_append, AfterAppend.after_append,
    frameD_arg4, frameC_arg4, frameB_arg4, frameA_arg4]
theorem arg5_eq (V : Valuation τ sig (Elt F)) : after ops V (main_arg5 : DevRef τ sig) = (V (main_arg5 : DevRef τ sig)) := by
  rw [ops_split, AfterAppend.after_append, AfterAppend.after_append, AfterAppend.after_append,
    frameD_arg5, frameC_arg5, frameB_arg5, frameA_arg5]
theorem arg6_eq (V : Valuation τ sig (Elt F)) : after ops V (main_arg6 : DevRef τ sig) = (V (main_arg6 : DevRef τ sig)) := by
  rw [ops_split, AfterAppend.after_append, AfterAppend.after_append, AfterAppend.after_append,
    frameD_arg6, frameC_arg6, frameB_arg6, frameA_arg6]
theorem arg7_eq (V : Valuation τ sig (Elt F)) : after ops V (main_arg7 : DevRef τ sig) = (V (main_arg7 : DevRef τ sig)) := by
  rw [ops_split, AfterAppend.after_append, AfterAppend.after_append, AfterAppend.after_append,
    frameD_arg7, frameC_arg7, frameB_arg7, frameA_arg7]
theorem arg8_eq (V : Valuation τ sig (Elt F)) : after ops V (main_arg8 : DevRef τ sig) = (V (main_arg8 : DevRef τ sig)) := by
  rw [ops_split, AfterAppend.after_append, AfterAppend.after_append, AfterAppend.after_append,
    frameD_arg8, frameC_arg8, frameB_arg8, frameA_arg8]
theorem arg9_eq (V : Valuation τ sig (Elt F)) : after ops V (main_arg9 : DevRef τ sig) = (V (main_arg9 : DevRef τ sig)) := by
  rw [ops_split, AfterAppend.after_append, AfterAppend.after_append, AfterAppend.after_append,
    frameD_arg9, frameC_arg9, frameB_arg9, frameA_arg9]
theorem arg10_eq (V : Valuation τ sig (Elt F)) : after ops V (main_arg10 : DevRef τ sig) = (V (main_arg10 : DevRef τ sig)) := by
  rw [ops_split, AfterAppend.after_append, AfterAppend.after_append, AfterAppend.after_append,
    frameD_arg10, frameC_arg10, frameB_arg10, frameA_arg10]
theorem arg11_eq (V : Valuation τ sig (Elt F)) : after ops V (main_arg11 : DevRef τ sig) = (V (main_arg11 : DevRef τ sig)) := by
  rw [ops_split, AfterAppend.after_append, AfterAppend.after_append, AfterAppend.after_append,
    frameD_arg11, frameC_arg11, frameB_arg11, frameA_arg11]

/-! ## The run -/

/-- On every device, for any float values, from any memory with zero counters: every weakly fair execution of the
    program terminates with each result buffer at the embedding of its graph's arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Cert.Stages.embed (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v85) = Cert.Stages.embed (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v42).trans (v42_eq _), (h c main_v85).trans (v85_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.lean ====
/-
  Two graph-convolution embeddings: the kernel program against the plain one, on the extended reals.

  For each of two independent graphs both programs compute
      out = rownorm (A · (selu (A · (X · W₁) + b₁) · W₂) + b₂),
  A the sparse matrix given by a coordinate list. The kernel program runs the three dense stages as pipelined
  regions over blocks of rows — X · W₁; bias, selu and · W₂ fused; bias and row normalisation fused — and forms the
  sparse products between them by the same whole-array gather, scaling and scatter-add the plain program uses. On the
  extended reals the changes of float format vanish, a row block of a product is the rows of the whole product, selu
  through exp (min y 0) − 1 is selu through expm1, and the fused bias-and-normalise is the plain one row by row: both
  programs' results are ONE composed term of the argument arrays (Proof/Stages.lean, embed). No law used needs
  finiteness, so the precondition is never opened.

  Frames: the two kernel programs' are the generated ones; the plain program's is its run with the results dropped.
  The idealisation rewrote no operation, so its conjunct is trivial.
-/
import proofs.«152458_j67903432950131_2_alg».proof.Defs
import proofs.«152458_j67903432950131_2_alg».proof.Proof.Gen.Kernel
import proofs.«152458_j67903432950131_2_alg».proof.Proof.Gen.Kernel.Frame
import proofs.«152458_j67903432950131_2_alg».proof.Proof.Gen.KernelIdeal
import proofs.«152458_j67903432950131_2_alg».proof.Proof.Gen.KernelIdeal.Frame
import proofs.«152458_j67903432950131_2_alg».proof.Proof.Gen.ReferenceIdeal
import proofs.«152458_j67903432950131_2_alg».proof.Proof.Gen.Pre_finite_inputs
import proofs.«152458_j67903432950131_2_alg».proof.Proof.KRun
import proofs.«152458_j67903432950131_2_alg».proof.Proof.KRead
import proofs.«152458_j67903432950131_2_alg».proof.Proof.Bridge
import proofs.«152458_j67903432950131_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run, the two results dropped. -/
theorem frame_ri : Cert.frame_ReferenceIdeal := fun m ρ _ =>
  (θ_run Cert.ReferenceIdeal.defs _ _).mono (fun _ h c => (h c).2.2)
    (Cert.ReferenceIdeal.RefRun.run (F := Ideal) m ρ)

/-- The kernel program's first result at the end of the run is the embedding of graph one. -/
theorem kernel_out1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v32)
      = Cert.Stages.embed (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  (Cert.KernelIdeal.KRead.g1_out_end m ρ c).trans (Cert.Bridge.outOf_eq _ _ _ _ _ _ _ _)

/-- The kernel program's second result at the end of the run is the embedding of graph two. -/
theorem kernel_out2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v63)
      = Cert.Stages.embed (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  (Cert.KernelIdeal.KRead.g2_out m ρ c).trans (Cert.Bridge.outOf_eq _ _ _ _ _ _ _ _)

/-- Both programs, run from memories agreeing on the arguments, end with the two embeddings of the arguments. -/
theorem algebraic : Cert.algebraic_KernelIdeal_ReferenceIdeal := by
  intro m ρ m' ρ' _ hagree
  refine ⟨fun c => Cert.Stages.embed (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Stages.embed (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.KRun.run_all (F := Ideal) m ρ)
    have hm := fun b hb => h c (Proc.devRef .tc b) (Cert.KernelIdeal.Gen.mem_uc b hb)
    exact ⟨(hm Cert.KernelIdeal.main_v32 (by decide)).trans (kernel_out1 m ρ c),
      (hm Cert.KernelIdeal.main_v63 (by decide)).trans (kernel_out2 m ρ c),
      (hm Cert.KernelIdeal.main_arg0 (by decide)).trans (Cert.KernelIdeal.Gen.W11_main_arg0 m ρ c),
      (hm Cert.KernelIdeal.main_arg1 (by decide)).trans (Cert.KernelIdeal.Gen.W11_main_arg1 m ρ c),
      (hm Cert.KernelIdeal.main_arg2 (by decide)).trans (Cert.KernelIdeal.Gen.W11_main_arg2 m ρ c),
      (hm Cert.KernelIdeal.main_arg3 (by decide)).trans (Cert.KernelIdeal.Gen.W11_main_arg3 m ρ c),
      (hm Cert.KernelIdeal.main_arg4 (by decide)).trans (Cert.KernelIdeal.Gen.W11_main_arg4 m ρ c),
      (hm Cert.KernelIdeal.main_arg5 (by decide)).trans (Cert.KernelIdeal.Gen.W11_main_arg5 m ρ c),
      (hm Cert.KernelIdeal.main_arg6 (by decide)).trans (Cert.KernelIdeal.Gen.W11_main_arg6 m ρ c),
      (hm Cert.KernelIdeal.main_arg7 (by decide)).trans (Cert.KernelIdeal.Gen.W11_main_arg7 m ρ c),
      (hm Cert.KernelIdeal.main_arg8 (by decide)).trans (Cert.KernelIdeal.Gen.W11_main_arg8 m ρ c),
      (hm Cert.KernelIdeal.main_arg9 (by decide)).trans (Cert.KernelIdeal.Gen.W11_main_arg9 m ρ c),
      (hm Cert.KernelIdeal.main_arg10 (by decide)).trans (Cert.KernelIdeal.Gen.W11_main_arg10 m ρ c),
      (hm Cert.KernelIdeal.main_arg11 (by decide)).trans (Cert.KernelIdeal.Gen.W11_main_arg11 m ρ c)⟩
  · refine (θ_run Cert.ReferenceIdeal.defs _ _).mono (fun r h c => ?_) (Cert.ReferenceIdeal.RefRun.run (F := Ideal) m' ρ')
    obtain ⟨a0, a1, a2, a3, a4, a5, a6, a7, a8, a9, a10, a11⟩ := hagree c
    refine ⟨(h c).1.trans ?_, (h c).2.1.trans ?_, (h c).2.2⟩
    · rw [a0, a2, a3, a4, a8, a9, a10, a11]
    · rw [a1, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
